-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x64 : Shape := ⟨2, ![128, 64]⟩
abbrev S64 : Shape := ⟨1, ![64]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg16 : FVec F S128x64 .f32) (main_arg17 : FVec F S256x128 .f32) (main_arg18 : FVec F S128 .f32) (main_arg19 : FVec F S128x1 .f32) (main_arg20 : FVec F S1 .f32) (main_v63 : IVec S_ 1) (main_v67 : IVec S_ 1) : IVec S_ 1 :=
  let main_v68 : IVec S_ 1 := andi main_v63 main_v67
  let main_v69 : FVec F S128x64 .f32 := Host.absf main_arg16
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S256x128 .f32 := Host.absf main_arg17
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128x64 .f32) (main_arg14 : FVec F S128x64 .f32) (main_arg15 : FVec F S64 .f32) (main_arg16 : FVec F S128x64 .f32) (main_arg17 : FVec F S256x128 .f32) (main_arg18 : FVec F S128 .f32) (main_arg19 : FVec F S128x1 .f32) (main_arg20 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_v63 main_v67

def fn_part2 {F : FTy → Type} [FloatOps F] (main_arg9 : FVec F S256x128 .f32) (main_arg10 : FVec F S128 .f32) (main_arg11 : FVec F S128x64 .f32) (main_arg12 : FVec F S64 .f32) (main_arg13 : FVec F S128x64 .f32) (main_arg14 : FVec F S128x64 .f32) (main_arg15 : FVec F S64 .f32) (main_arg16 : FVec F S128x64 .f32) (main_arg17 : FVec F S256x128 .f32) (main_arg18 : FVec F S128 .f32) (main_arg19 : FVec F S128x1 .f32) (main_arg20 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_v48 main_v49 main_v50

def fn_part1 {F : FTy → Type} [FloatOps F] (main_arg6 : FVec F S128x64 .f32) (main_arg7 : FVec F S64 .f32) (main_arg8 : FVec F S128x64 .f32) (main_arg9 : FVec F S256x128 .f32) (main_arg10 : FVec F S128 .f32) (main_arg11 : FVec F S128x64 .f32) (main_arg12 : FVec F S64 .f32) (main_arg13 : FVec F S128x64 .f32) (main_arg14 : FVec F S128x64 .f32) (main_arg15 : FVec F S64 .f32) (main_arg16 : FVec F S128x64 .f32) (main_arg17 : FVec F S256x128 .f32) (main_arg18 : FVec F S128 .f32) (main_arg19 : FVec F S128x1 .f32) (main_arg20 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : IVec S2x625000 32) (main_arg2 : IVec S2x625000 32) (main_arg3 : FVec F S128x64 .f32) (main_arg4 : FVec F S64 .f32) (main_arg5 : FVec F S128x64 .f32) (main_arg6 : FVec F S128x64 .f32) (main_arg7 : FVec F S64 .f32) (main_arg8 : FVec F S128x64 .f32) (main_arg9 : FVec F S256x128 .f32) (main_arg10 : FVec F S128 .f32) (main_arg11 : FVec F S128x64 .f32) (main_arg12 : FVec F S64 .f32) (main_arg13 : FVec F S128x64 .f32) (main_arg14 : FVec F S128x64 .f32) (main_arg15 : FVec F S64 .f32) (main_arg16 : FVec F S128x64 .f32) (main_arg17 : FVec F S256x128 .f32) (main_arg18 : FVec F S128 .f32) (main_arg19 : FVec F S128x1 .f32) (main_arg20 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S2x625000 : Shape := ⟨2, ![2, 625000]⟩
abbrev S128x64 : Shape := ⟨2, ![128, 64]⟩
abbrev S64 : Shape := ⟨1, ![64]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x64 : Shape := ⟨2, ![1, 64]⟩
abbrev S1x128 : Shape := ⟨2, ![1, 128]⟩
abbrev S2000x128 : Shape := ⟨2, ![2000, 128]⟩
abbrev S2000x64 : Shape := ⟨2, ![2000, 64]⟩
abbrev S2000x256 : Shape := ⟨2, ![2000, 256]⟩
abbrev S1x1 : Shape := ⟨2, ![1, 1]⟩
abbrev S2000x1 : Shape := ⟨2, ![2000, 1]⟩

abbrev nBuf : Space → Nat
  | .hbm => 147
  | .vmem => 34
  | .smem => 0
  | _ => 0

abbrev hbmTy0_0 (i : Nat) : BufTy := match i % 128 with
  | 0 => ⟨S50000x128, .f32⟩
  | 1 => ⟨S2x625000, .i32⟩
  | 2 => ⟨S2x625000, .i32⟩
  | 3 => ⟨S128x64, .f32⟩
  | 4 => ⟨S64, .f32⟩
  | 5 => ⟨S128x64, .f32⟩
  | 6 => ⟨S128x64, .f32⟩
  | 7 => ⟨S64, .f32⟩
  | 8 => ⟨S128x64, .f32⟩
  | 9 => ⟨S256x128, .f32⟩
  | 10 => ⟨S128, .f32⟩
  | 11 => ⟨S128x64, .f32⟩
  | 12 => ⟨S64, .f32⟩
  | 13 => ⟨S128x64, .f32⟩
  | 14 => ⟨S128x64, .f32⟩
  | 15 => ⟨S64, .f32⟩
  | 16 => ⟨S128x64, .f32⟩
  | 17 => ⟨S256x128, .f32⟩
  | 18 => ⟨S128, .f32⟩
  | 19 => ⟨S128x1, .f32⟩
  | 20 => ⟨S1, .f32⟩
  | 21 => ⟨S1x625000, .i32⟩
  | 22 => ⟨S625000, .i32⟩
  | 23 => ⟨S1x625000, .i32⟩
  | 24 => ⟨S625000, .i32⟩
  | 25 => ⟨S_, .i32⟩
  | 26 => ⟨S625000, .i32⟩
  | 27 => ⟨S625000, .i1⟩
  | 28 => ⟨S_, .i32⟩
  | 29 => ⟨S625000, .i32⟩
  | 30 => ⟨S625000, .i32⟩
  | 31 => ⟨S625000, .i32⟩
  | 32 => ⟨S625000x1, .i32⟩
  | 33 => ⟨S625000x128, .f32⟩
  | 34 => ⟨S_, .f32⟩
  | 35 => ⟨S50000x128, .f32⟩
  | 36 => ⟨S625000x1, .i32⟩
  | 37 => ⟨S50000x128, .f32⟩
  | 38 => ⟨S_, .f32⟩
  | 39 => ⟨S625000, .f32⟩
  | 40 => ⟨S_, .f32⟩
  | 41 => ⟨S50000, .f32⟩
  | 42 => ⟨S625000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S1x625000, .i32⟩
  | 51 => ⟨S625000, .i32⟩
  | 52 => ⟨S1x625000, .i32⟩
  | 53 => ⟨S625000, .i32⟩
  | 54 => ⟨S_, .i32⟩
  | 55 => ⟨S625000, .i32⟩
  | 56 => ⟨S625000, .i1⟩
  | 57 => ⟨S_, .i32⟩
  | 58 => ⟨S625000, .i32⟩
  | 59 => ⟨S625000, .i32⟩
  | 60 => ⟨S625000, .i32⟩
  | 61 => ⟨S625000x1, .i32⟩
  | 62 => ⟨S625000x128, .f32⟩
  | 63 => ⟨S_, .f32⟩
  | 64 => ⟨S50000x128, .f32⟩
  | 65 => ⟨S625000x1, .i32⟩
  | 66 => ⟨S50000x128, .f32⟩
  | 67 => ⟨S_, .f32⟩
  | 68 => ⟨S625000, .f32⟩
  | 69 => ⟨S_, .f32⟩
  | 70 => ⟨S50000, .f32⟩
  | 71 => ⟨S625000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x128, .f32⟩
  | 78 => ⟨S50000x128, .f32⟩
  | 79 => ⟨S1x64, .f32⟩
  | 80 => ⟨S1x64, .f32⟩
  | 81 => ⟨S1x128, .f32⟩
  | 82 => ⟨S50000x128, .f32⟩
  | 83 => ⟨S1x625000, .i32⟩
  | 84 => ⟨S625000, .i32⟩
  | 85 => ⟨S1x625000, .i32⟩
  | 86 => ⟨S625000, .i32⟩
  | 87 => ⟨S_, .i32⟩
  | 88 => ⟨S625000, .i32⟩
  | 89 => ⟨S625000, .i1⟩
  | 90 => ⟨S_, .i32⟩
  | 91 => ⟨S625000, .i32⟩
  | 92 => ⟨S625000, .i32⟩
  | 93 => ⟨S625000, .i32⟩
  | 94 => ⟨S625000x1, .i32⟩
  | 95 => ⟨S625000x128, .f32⟩
  | 96 => ⟨S_, .f32⟩
  | 97 => ⟨S50000x128, .f32⟩
  | 98 => ⟨S625000x1, .i32⟩
  | 99 => ⟨S50000x128, .f32⟩
  | 100 => ⟨S_, .f32⟩
  | 101 => ⟨S625000, .f32⟩
  | 102 => ⟨S_, .f32⟩
  | 103 => ⟨S50000, .f32⟩
  | 104 => ⟨S625000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S1x625000, .i32⟩
  | 113 => ⟨S625000, .i32⟩
  | 114 => ⟨S1x625000, .i32⟩
  | 115 => ⟨S625000, .i32⟩
  | 116 => ⟨S_, .i32⟩
  | 117 => ⟨S625000, .i32⟩
  | 118 => ⟨S625000, .i1⟩
  | 119 => ⟨S_, .i32⟩
  | 120 => ⟨S625000, .i32⟩
  | 121 => ⟨S625000, .i32⟩
  | 122 => ⟨S625000, .i32⟩
  | 123 => ⟨S625000x1, .i32⟩
  | 124 => ⟨S625000x128, .f32⟩
  | 125 => ⟨S_, .f32⟩
  | 126 => ⟨S50000x128, .f32⟩
  | 127 => ⟨S625000x1, .i32⟩
  | _ => ⟨S50000x128, .f32⟩

abbrev hbmTy0_1 (i : Nat) : BufTy := match i % 128 with
  | 0 => ⟨S50000x128, .f32⟩
  | 1 => ⟨S_, .f32⟩
  | 2 => ⟨S625000, .f32⟩
  | 3 => ⟨S_, .f32⟩
  | 4 => ⟨S50000, .f32⟩
  | 5 => ⟨S625000x1, .i32⟩
  | 6 => ⟨S50000, .f32⟩
  | 7 => ⟨S_, .f32⟩
  | 8 => ⟨S50000, .f32⟩
  | 9 => ⟨S50000, .f32⟩
  | 10 => ⟨S50000x1, .f32⟩
  | 11 => ⟨S50000x128, .f32⟩
  | 12 => ⟨S50000x128, .f32⟩
  | 13 => ⟨S1x64, .f32⟩
  | 14 => ⟨S1x64, .f32⟩
  | 15 => ⟨S1x128, .f32⟩
  | 16 => ⟨S1x1, .f32⟩
  | 17 => ⟨S50000x1, .f32⟩
  | 18 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x64, .f32⟩
  | .local _ .vmem, ⟨7, _⟩ => ⟨S1x64, .f32⟩
  | .local _ .vmem, ⟨8, _⟩ => ⟨S128x64, .f32⟩
  | .local _ .vmem, ⟨9, _⟩ => ⟨S128x64, .f32⟩
  | .local _ .vmem, ⟨10, _⟩ => ⟨S1x64, .f32⟩
  | .local _ .vmem, ⟨11, _⟩ => ⟨S128x64, .f32⟩
  | .local _ .vmem, ⟨12, _⟩ => ⟨S256x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S128x64, .f32⟩
  | .local _ .vmem, ⟨26, _⟩ => ⟨S1x64, .f32⟩
  | .local _ .vmem, ⟨27, _⟩ => ⟨S128x64, .f32⟩
  | .local _ .vmem, ⟨28, _⟩ => ⟨S256x128, .f32⟩
  | .local _ .vmem, ⟨29, _⟩ => ⟨S1x128, .f32⟩
  | .local _ .vmem, ⟨30, _⟩ => ⟨S128x1, .f32⟩
  | .local _ .vmem, ⟨31, _⟩ => ⟨S1x1, .f32⟩
  | .local _ .vmem, ⟨32, _⟩ => ⟨S2000x1, .f32⟩
  | .local _ .vmem, ⟨33, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_4 : Ref sig .tc := ⟨.hbm, 54, rfl⟩
abbrev main_v27 : Ref sig .tc := ⟨.hbm, 55, rfl⟩
abbrev main_v28 : Ref sig .tc := ⟨.hbm, 56, rfl⟩
abbrev main_c_5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_15 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_18 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩
abbrev main_cst_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg13_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem13_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S64_S1x64 : S64.ShapeCasts S1x64
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S2000x128_S2000x64_S2000x64_S2000x256_d1 : Shape.Concatenates [S2000x128, S2000x64, S2000x64] S2000x256 1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S2000x128_S128x64_S2000x64_1_0_0_1_n_n_wf : DotDims.WF S2000x128 S128x64 S2000x64 [1] [0] [0] [1] [] []
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S256x128.size a
  hwx1_9 : ∀ i : grid1.Coords, EltTy.bits .f32 = 32 ∨ (Rect.block (s := S256x128) S256x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x1.size a ≤ S128x1.size a
  hwx1_11 : ∀ i : grid1.Coords, EltTy.bits .f32 = 32 ∨ (Rect.block (s := S128x1) S128x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x1.size a ≤ S50000x1.size a
  hwx1_13 : ∀ i : grid1.Coords, EltTy.bits .f32 = 32 ∨ (Rect.block (s := S50000x1) S2000x1.size (cc1_transform_13 i) (hinb1_13 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v48) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v49) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v95) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v96) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v97) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S256x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v98) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg19) S128x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v99) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v100) S2000x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x64 : Shape := ⟨2, ![128, 64]⟩
abbrev S64 : Shape := ⟨1, ![64]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S50000x256 : Shape := ⟨2, ![50000, 256]⟩
abbrev S1x128 : Shape := ⟨2, ![1, 128]⟩
abbrev S1x1 : Shape := ⟨2, ![1, 1]⟩

abbrev nBuf : Space → Nat
  | .hbm => 194
  | .vmem => 0
  | .smem => 0
  | _ => 0

abbrev hbmTy0_0 (i : Nat) : BufTy := match i % 128 with
  | 0 => ⟨S50000x128, .f32⟩
  | 1 => ⟨S2x625000, .i32⟩
  | 2 => ⟨S2x625000, .i32⟩
  | 3 => ⟨S128x64, .f32⟩
  | 4 => ⟨S64, .f32⟩
  | 5 => ⟨S128x64, .f32⟩
  | 6 => ⟨S128x64, .f32⟩
  | 7 => ⟨S64, .f32⟩
  | 8 => ⟨S128x64, .f32⟩
  | 9 => ⟨S256x128, .f32⟩
  | 10 => ⟨S128, .f32⟩
  | 11 => ⟨S128x64, .f32⟩
  | 12 => ⟨S64, .f32⟩
  | 13 => ⟨S128x64, .f32⟩
  | 14 => ⟨S128x64, .f32⟩
  | 15 => ⟨S64, .f32⟩
  | 16 => ⟨S128x64, .f32⟩
  | 17 => ⟨S256x128, .f32⟩
  | 18 => ⟨S128, .f32⟩
  | 19 => ⟨S128x1, .f32⟩
  | 20 => ⟨S1, .f32⟩
  | 21 => ⟨S1x625000, .i32⟩
  | 22 => ⟨S625000, .i32⟩
  | 23 => ⟨S1x625000, .i32⟩
  | 24 => ⟨S625000, .i32⟩
  | 25 => ⟨S_, .i32⟩
  | 26 => ⟨S625000, .i32⟩
  | 27 => ⟨S625000, .i1⟩
  | 28 => ⟨S_, .i32⟩
  | 29 => ⟨S625000, .i32⟩
  | 30 => ⟨S625000, .i32⟩
  | 31 => ⟨S625000, .i32⟩
  | 32 => ⟨S625000x1, .i32⟩
  | 33 => ⟨S625000x128, .f32⟩
  | 34 => ⟨S_, .f32⟩
  | 35 => ⟨S50000x128, .f32⟩
  | 36 => ⟨S625000x1, .i32⟩
  | 37 => ⟨S50000x128, .f32⟩
  | 38 => ⟨S_, .f32⟩
  | 39 => ⟨S625000, .f32⟩
  | 40 => ⟨S_, .f32⟩
  | 41 => ⟨S50000, .f32⟩
  | 42 => ⟨S625000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S50000x64, .f32⟩
  | 51 => ⟨S1x64, .f32⟩
  | 52 => ⟨S50000x64, .f32⟩
  | 53 => ⟨S50000x64, .f32⟩
  | 54 => ⟨S50000x64, .f32⟩
  | 55 => ⟨S50000x64, .f32⟩
  | 56 => ⟨S_, .f32⟩
  | 57 => ⟨S50000x64, .f32⟩
  | 58 => ⟨S50000x64, .f32⟩
  | 59 => ⟨S1x625000, .i32⟩
  | 60 => ⟨S625000, .i32⟩
  | 61 => ⟨S1x625000, .i32⟩
  | 62 => ⟨S625000, .i32⟩
  | 63 => ⟨S_, .i32⟩
  | 64 => ⟨S625000, .i32⟩
  | 65 => ⟨S625000, .i1⟩
  | 66 => ⟨S_, .i32⟩
  | 67 => ⟨S625000, .i32⟩
  | 68 => ⟨S625000, .i32⟩
  | 69 => ⟨S625000, .i32⟩
  | 70 => ⟨S625000x1, .i32⟩
  | 71 => ⟨S625000x128, .f32⟩
  | 72 => ⟨S_, .f32⟩
  | 73 => ⟨S50000x128, .f32⟩
  | 74 => ⟨S625000x1, .i32⟩
  | 75 => ⟨S50000x128, .f32⟩
  | 76 => ⟨S_, .f32⟩
  | 77 => ⟨S625000, .f32⟩
  | 78 => ⟨S_, .f32⟩
  | 79 => ⟨S50000, .f32⟩
  | 80 => ⟨S625000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x128, .f32⟩
  | 87 => ⟨S50000x128, .f32⟩
  | 88 => ⟨S50000x64, .f32⟩
  | 89 => ⟨S1x64, .f32⟩
  | 90 => ⟨S50000x64, .f32⟩
  | 91 => ⟨S50000x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S50000x256, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x625000, .i32⟩
  | 106 => ⟨S625000, .i32⟩
  | 107 => ⟨S1x625000, .i32⟩
  | 108 => ⟨S625000, .i32⟩
  | 109 => ⟨S_, .i32⟩
  | 110 => ⟨S625000, .i32⟩
  | 111 => ⟨S625000, .i1⟩
  | 112 => ⟨S_, .i32⟩
  | 113 => ⟨S625000, .i32⟩
  | 114 => ⟨S625000, .i32⟩
  | 115 => ⟨S625000, .i32⟩
  | 116 => ⟨S625000x1, .i32⟩
  | 117 => ⟨S625000x128, .f32⟩
  | 118 => ⟨S_, .f32⟩
  | 119 => ⟨S50000x128, .f32⟩
  | 120 => ⟨S625000x1, .i32⟩
  | 121 => ⟨S50000x128, .f32⟩
  | 122 => ⟨S_, .f32⟩
  | 123 => ⟨S625000, .f32⟩
  | 124 => ⟨S_, .f32⟩
  | 125 => ⟨S50000, .f32⟩
  | 126 => ⟨S625000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S50000x1, .f32⟩
  | 4 => ⟨S50000x128, .f32⟩
  | 5 => ⟨S50000x128, .f32⟩
  | 6 => ⟨S50000x64, .f32⟩
  | 7 => ⟨S1x64, .f32⟩
  | 8 => ⟨S50000x64, .f32⟩
  | 9 => ⟨S50000x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S1x625000, .i32⟩
  | 16 => ⟨S625000, .i32⟩
  | 17 => ⟨S1x625000, .i32⟩
  | 18 => ⟨S625000, .i32⟩
  | 19 => ⟨S_, .i32⟩
  | 20 => ⟨S625000, .i32⟩
  | 21 => ⟨S625000, .i1⟩
  | 22 => ⟨S_, .i32⟩
  | 23 => ⟨S625000, .i32⟩
  | 24 => ⟨S625000, .i32⟩
  | 25 => ⟨S625000, .i32⟩
  | 26 => ⟨S625000x1, .i32⟩
  | 27 => ⟨S625000x128, .f32⟩
  | 28 => ⟨S_, .f32⟩
  | 29 => ⟨S50000x128, .f32⟩
  | 30 => ⟨S625000x1, .i32⟩
  | 31 => ⟨S50000x128, .f32⟩
  | 32 => ⟨S_, .f32⟩
  | 33 => ⟨S625000, .f32⟩
  | 34 => ⟨S_, .f32⟩
  | 35 => ⟨S50000, .f32⟩
  | 36 => ⟨S625000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x64, .f32⟩
  | 45 => ⟨S1x64, .f32⟩
  | 46 => ⟨S50000x64, .f32⟩
  | 47 => ⟨S50000x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S50000x256, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x1, .f32⟩
  | 62 => ⟨S1x1, .f32⟩
  | 63 => ⟨S50000x1, .f32⟩
  | 64 => ⟨S50000x1, .f32⟩
  | 65 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_call0_cst : Ref sig .tc := ⟨.hbm, 56, rfl⟩
abbrev main_call0_v0 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call1_cst : Ref sig .tc := ⟨.hbm, 94, rfl⟩
abbrev main_call1_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call2_cst : Ref sig .tc := ⟨.hbm, 102, rfl⟩
abbrev main_call2_v0 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_10 : Ref sig .tc := ⟨.hbm, 109, rfl⟩
abbrev main_v70 : Ref sig .tc := ⟨.hbm, 110, rfl⟩
abbrev main_v71 : Ref sig .tc := ⟨.hbm, 111, rfl⟩
abbrev main_c_11 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_12 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_13 : Ref sig .tc := ⟨.hbm, 122, rfl⟩
abbrev main_v80 : Ref sig .tc := ⟨.hbm, 123, rfl⟩
abbrev main_cst_14 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_15 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_call3_cst : Ref sig .tc := ⟨.hbm, 140, rfl⟩
abbrev main_call3_v0 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_16 : Ref sig .tc := ⟨.hbm, 147, rfl⟩
abbrev main_v100 : Ref sig .tc := ⟨.hbm, 148, rfl⟩
abbrev main_v101 : Ref sig .tc := ⟨.hbm, 149, rfl⟩
abbrev main_c_17 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_18 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_19 : Ref sig .tc := ⟨.hbm, 160, rfl⟩
abbrev main_v110 : Ref sig .tc := ⟨.hbm, 161, rfl⟩
abbrev main_cst_20 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_21 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_call4_cst : Ref sig .tc := ⟨.hbm, 178, rfl⟩
abbrev main_call4_v0 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_call5_cst : Ref sig .tc := ⟨.hbm, 186, rfl⟩
abbrev main_call5_v0 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x128_S50000x64_S50000x64_S50000x256_d1 : Shape.Concatenates [S50000x128, S50000x64, S50000x64] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S50000x128_S128x64_S50000x64_1_0_0_1_n_n_wf : DotDims.WF S50000x128 S128x64 S50000x64 [1] [0] [0] [1] [] []
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run with its result NAMED.

  The program is five segments: host operations, the first layer's kernel, host operations, the second layer's kernel
  with the final projection, and one last reshape. The frame's chain of segment boundaries ends with every buffer of
  the TensorCore at the contents `W5` — the last reshape applied to what the second kernel's write-backs leave, which
  were computed from what the host operations between the kernels leave, and so on back to the launch memory. Reading
  the result buffer (and each argument) against that last boundary gives the run below: the result buffer ends at
  `W5`'s value there, the arguments as launched.
-/
import proofs.«137591_j30339648979103_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument array as launched. -/
theorem run : θ_run defs (onTc (τ := τ) (main (F := F))) ⟨m, fun _ => 0, ρ⟩ (fun r => ∀ c : Dev nD,
      r.2.mem ((c.tc : Thread nD τ).loc main_v101) = W5 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v101 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c)⟩)

end Cert.KernelIdeal.RunValue

end
-- ==== Proof.HostGlue.lean ====
/-
  The host operations around the two kernels, read as pure terms.

  Before each kernel the program computes, on the host, the mean of the neighbours' rows along the incoming and along the
  outgoing edges (`aggK`: gather the source rows, add them into the destination rows, divide by the in-degree clamped below
  at one) and reshapes each bias vector [n] to a row [1, n]. So the arrays the first kernel finds are the launch
  arguments, the two means of the features and the reshaped biases; the arrays the second kernel finds are the first
  kernel's output array `X`, the two means of `X`, the second layer's weights and its reshaped biases; and the result
  buffer ends at the second kernel's output column reshaped [50000, 1] → [50000].
-/
import proofs.«137591_j30339648979103_1_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

/-- The mean over the edges `e` (row 0: sources, row 1: destinations) of the rows of `x`: for each destination node the
    sum of its sources' rows divided by max(number of such edges, 1). The host operations as the program has them;
    nothing below opens it. -/
def aggK (x : FVec Ideal S50000x128 .f32) (e : IVec S2x625000 32) : FVec Ideal S50000x128 .f32 :=
  (Host.divf (Host.scatterAdd scatter_S50000x128_S625000x1_S625000x128_1_0_0_1 (broadcastInDim S50000x128 ![] bcast_S_S50000x128 (constant S_ .f32 0x00000000#32)) (broadcastInDim S625000x1 ![0] bcast_S625000_S625000x1_0 (shapeCast _ (extractStridedSlice S1x625000 ![1, 0] e slices_S2x625000_S1x625000_1_0) shapeCasts_S1x625000_S625000)) (Host.gather gather_S50000x128_S625000x1_S625000x128_1_0_n_n_0_1_1128 x (broadcastInDim S625000x1 ![0] bcast_S625000_S625000x1_0 (select (cmpi .slt (shapeCast _ (extractStridedSlice S1x625000 ![0, 0] e slices_S2x625000_S1x625000_0_0) shapeCasts_S1x625000_S625000) (broadcastInDim S625000 ![] bcast_S_S625000 (constantI S_ 32 0#32))) (addi (shapeCast _ (extractStridedSlice S1x625000 ![0, 0] e slices_S2x625000_S1x625000_0_0) shapeCasts_S1x625000_S625000) (broadcastInDim S625000 ![] bcast_S_S625000 (constantI S_ 32 50000#32))) (shapeCast _ (extractStridedSlice S1x625000 ![0, 0] e slices_S2x625000_S1x625000_0_0) shapeCasts_S1x625000_S625000))))) (broadcastInDim S50000x128 ![0, 1] bcast_S50000x1_S50000x128_0_1 (broadcastInDim S50000x1 ![0] bcast_S50000_S50000x1_0 (maximumf (Host.scatterAdd scatter_S50000_S625000x1_S625000_n_0_0_1 (broadcastInDim S50000 ![] bcast_S_S50000 (constant S_ .f32 0x00000000#32)) (broadcastInDim S625000x1 ![0] bcast_S625000_S625000x1_0 (shapeCast _ (extractStridedSlice S1x625000 ![1, 0] e slices_S2x625000_S1x625000_1_0) shapeCasts_S1x625000_S625000)) (broadcastInDim S625000 ![] bcast_S_S625000 (constant S_ .f32 0x3F800000#32))) (broadcastInDim S50000 ![] bcast_S_S50000 (constant S_ .f32 0x3F800000#32))))))

variable (m : (ℓ : Loc nD τ sig) → Buf (Elt Ideal) ℓ) (ρ : Dev nD → PrngReg)

/-! ## What the first kernel finds -/
theorem V1_arg0 (c : Dev nD) : V1 m ρ c main_arg0 = (m ((c.tc : Thread nD τ).loc main_arg0)) := by
  show StableHlo.after hostOps0 (W0 m ρ c) (Proc.devRef .tc main_arg0) = _
  after_results_simp <;> rfl
theorem V1_arg3 (c : Dev nD) : V1 m ρ c main_arg3 = (m ((c.tc : Thread nD τ).loc main_arg3)) := by
  show StableHlo.after hostOps0 (W0 m ρ c) (Proc.devRef .tc main_arg3) = _
  after_results_simp <;> rfl
theorem V1_arg5 (c : Dev nD) : V1 m ρ c main_arg5 = (m ((c.tc : Thread nD τ).loc main_arg5)) := by
  show StableHlo.after hostOps0 (W0 m ρ c) (Proc.devRef .tc main_arg5) = _
  after_results_simp <;> rfl
theorem V1_arg6 (c : Dev nD) : V1 m ρ c main_arg6 = (m ((c.tc : Thread nD τ).loc main_arg6)) := by
  show StableHlo.after hostOps0 (W0 m ρ c) (Proc.devRef .tc main_arg6) = _
  after_results_simp <;> rfl
theorem V1_arg8 (c : Dev nD) : V1 m ρ c main_arg8 = (m ((c.tc : Thread nD τ).loc main_arg8)) := by
  show StableHlo.after hostOps0 (W0 m ρ c) (Proc.devRef .tc main_arg8) = _
  after_results_simp <;> rfl
theorem V1_arg9 (c : Dev nD) : V1 m ρ c main_arg9 = (m ((c.tc : Thread nD τ).loc main_arg9)) := by
  show StableHlo.after hostOps0 (W0 m ρ c) (Proc.devRef .tc main_arg9) = _
  after_results_simp <;> rfl
theorem V1_v22 (c : Dev nD) : V1 m ρ c main_v22 = aggK (m ((c.tc : Thread nD τ).loc main_arg0)) (m ((c.tc : Thread nD τ).loc main_arg1)) := by
  show StableHlo.after hostOps0 (W0 m ρ c) (Proc.devRef .tc main_v22) = _
  after_results_simp <;> rfl
theorem V1_v45 (c : Dev nD) : V1 m ρ c main_v45 = aggK (m ((c.tc : Thread nD τ).loc main_arg0)) (m ((c.tc : Thread nD τ).loc main_arg2)) := by
  show StableHlo.after hostOps0 (W0 m ρ c) (Proc.devRef .tc main_v45) = _
  after_results_simp <;> rfl
theorem V1_v46 (c : Dev nD) : V1 m ρ c main_v46 = shapeCast S1x64 (m ((c.tc : Thread nD τ).loc main_arg4)) shapeCasts_S64_S1x64 := by
  show StableHlo.after hostOps0 (W0 m ρ c) (Proc.devRef .tc main_v46) = _
  after_results_simp <;> rfl
theorem V1_v47 (c : Dev nD) : V1 m ρ c main_v47 = shapeCast S1x64 (m ((c.tc : Thread nD τ).loc main_arg7)) shapeCasts_S64_S1x64 := by
  show StableHlo.after hostOps0 (W0 m ρ c) (Proc.devRef .tc main_v47) = _
  after_results_simp <;> rfl
theorem V1_v48 (c : Dev nD) : V1 m ρ c main_v48 = shapeCast S1x128 (m ((c.tc : Thread nD τ).loc main_arg10)) shapeCasts_S128_S1x128 := by
  show StableHlo.after hostOps0 (W0 m ρ c) (Proc.devRef .tc main_v48) = _
  after_results_simp <;> rfl

/-! ## Between the kernels: the arguments are untouched, the first kernel's output array is what its write-backs leave -/

theorem W2_arg1 (c : Dev nD) : W2 m ρ c (Proc.devRef .tc main_arg1) = (m ((c.tc : Thread nD τ).loc main_arg1)) := by
  refine (W2_of_ne m ρ c main_arg1 (by decide)).trans ?_
  show StableHlo.after hostOps0 (W0 m ρ c) (Proc.devRef .tc main_arg1) = _
  after_results_simp <;> rfl
theorem W2_arg2 (c : Dev nD) : W2 m ρ c (Proc.devRef .tc main_arg2) = (m ((c.tc : Thread nD τ).loc main_arg2)) := by
  refine (W2_of_ne m ρ c main_arg2 (by decide)).trans ?_
  show StableHlo.after hostOps0 (W0 m ρ c) (Proc.devRef .tc main_arg2) = _
  after_results_simp <;> rfl
theorem W2_arg11 (c : Dev nD) : W2 m ρ c (Proc.devRef .tc main_arg11) = (m ((c.tc : Thread nD τ).loc main_arg11)) := by
  refine (W2_of_ne m ρ c main_arg11 (by decide)).trans ?_
  show StableHlo.after hostOps0 (W0 m ρ c) (Proc.devRef .tc main_arg11) = _
  after_results_simp <;> rfl
theorem W2_arg12 (c : Dev nD) : W2 m ρ c (Proc.devRef .tc main_arg12) = (m ((c.tc : Thread nD τ).loc main_arg12)) := by
  refine (W2_of_ne m ρ c main_arg12 (by decide)).trans ?_
  show StableHlo.after hostOps0 (W0 m ρ c) (Proc.devRef .tc main_arg12) = _
  after_results_simp <;> rfl
theorem W2_arg13 (c : Dev nD) : W2 m ρ c (Proc.devRef .tc main_arg13) = (m ((c.tc : Thread nD τ).loc main_arg13)) := by
  refine (W2_of_ne m ρ c main_arg13 (by decide)).trans ?_
  show StableHlo.after hostOps0 (W0 m ρ c) (Proc.devRef .tc main_arg13) = _
  after_results_simp <;> rfl
theorem W2_arg14 (c : Dev nD) : W2 m ρ c (Proc.devRef .tc main_arg14) = (m ((c.tc : Thread nD τ).loc main_arg14)) := by
  refine (W2_of_ne m ρ c main_arg14 (by decide)).trans ?_
  show StableHlo.after hostOps0 (W0 m ρ c) (Proc.devRef .tc main_arg14) = _
  after_results_simp <;> rfl
theorem W2_arg15 (c : Dev nD) : W2 m ρ c (Proc.devRef .tc main_arg15) = (m ((c.tc : Thread nD τ).loc main_arg15)) := by
  refine (W2_of_ne m ρ c main_arg15 (by decide)).trans ?_
  show StableHlo.after hostOps0 (W0 m ρ c) (Proc.devRef .tc main_arg15) = _
  after_results_simp <;> rfl
theorem W2_arg16 (c : Dev nD) : W2 m ρ c (Proc.devRef .tc main_arg16) = (m ((c.tc : Thread nD τ).loc main_arg16)) := by
  refine (W2_of_ne m ρ c main_arg16 (by decide)).trans ?_
  show StableHlo.after hostOps0 (W0 m ρ c) (Proc.devRef .tc main_arg16) = _
  after_results_simp <;> rfl
theorem W2_arg17 (c : Dev nD) : W2 m ρ c (Proc.devRef .tc main_arg17) = (m ((c.tc : Thread nD τ).loc main_arg17)) := by
  refine (W2_of_ne m ρ c main_arg17 (by decide)).trans ?_
  show StableHlo.after hostOps0 (W0 m ρ c) (Proc.devRef .tc main_arg17) = _
  after_results_simp <;> rfl
theorem W2_arg18 (c : Dev nD) : W2 m ρ c (Proc.devRef .tc main_arg18) = (m ((c.tc : Thread nD τ).loc main_arg18)) := by
  refine (W2_of_ne m ρ c main_arg18 (by decide)).trans ?_
  show StableHlo.after hostOps0 (W0 m ρ c) (Proc.devRef .tc main_arg18) = _
  after_results_simp <;> rfl
theorem W2_arg19 (c : Dev nD) : W2 m ρ c (Proc.devRef .tc main_arg19) = (m ((c.tc : Thread nD τ).loc main_arg19)) := by
  refine (W2_of_ne m ρ c main_arg19 (by decide)).trans ?_
  show StableHlo.after hostOps0 (W0 m ρ c) (Proc.devRef .tc main_arg19) = _
  after_results_simp <;> rfl
theorem W2_arg20 (c : Dev nD) : W2 m ρ c (Proc.devRef .tc main_arg20) = (m ((c.tc : Thread nD τ).loc main_arg20)) := by
  refine (W2_of_ne m ρ c main_arg20 (by decide)).trans ?_
  show StableHlo.after hostOps0 (W0 m ρ c) (Proc.devRef .tc main_arg20) = _
  after_results_simp <;> rfl
/-- The first kernel's output array. -/
abbrev X (c : Dev nD) : (⟨S50000x128, .f32⟩ : BufTy).Contents (Elt Ideal) := (dat0 (V1 m ρ) c).arrAt 11 cfg0.N
theorem W2_v49 (c : Dev nD) : W2 m ρ c (Proc.devRef .tc main_v49) = X m ρ c := W2_arr m ρ c 11

/-! ## What the second kernel finds -/

theorem V3_v49 (c : Dev nD) : V3 m ρ c main_v49 = X m ρ c := by
  refine Eq.trans ?_ (W2_v49 m ρ c)
  show StableHlo.after hostOps1 (W2 m ρ c) (Proc.devRef .tc main_v49) = _
  after_results_simp <;> rfl
theorem V3_v72 (c : Dev nD) : V3 m ρ c main_v72 = aggK (X m ρ c) (m ((c.tc : Thread nD τ).loc main_arg1)) := by
  rw [← W2_v49 m ρ c, ← W2_arg1 m ρ c]
  show StableHlo.after hostOps1 (W2 m ρ c) (Proc.devRef .tc main_v72) = _
  after_results_simp <;> rfl
theorem V3_v95 (c : Dev nD) : V3 m ρ c main_v95 = aggK (X m ρ c) (m ((c.tc : Thread nD τ).loc main_arg2)) := by
  rw [← W2_v49 m ρ c, ← W2_arg2 m ρ c]
  show StableHlo.after hostOps1 (W2 m ρ c) (Proc.devRef .tc main_v95) = _
  after_results_simp <;> rfl
theorem V3_arg11 (c : Dev nD) : V3 m ρ c main_arg11 = (m ((c.tc : Thread nD τ).loc main_arg11)) := by
  rw [← W2_arg11 m ρ c]
  show StableHlo.after hostOps1 (W2 m ρ c) (Proc.devRef .tc main_arg11) = _
  after_results_simp <;> rfl
theorem V3_arg13 (c : Dev nD) : V3 m ρ c main_arg13 = (m ((c.tc : Thread nD τ).loc main_arg13)) := by
  rw [← W2_arg13 m ρ c]
  show StableHlo.after hostOps1 (W2 m ρ c) (Proc.devRef .tc main_arg13) = _
  after_results_simp <;> rfl
theorem V3_arg14 (c : Dev nD) : V3 m ρ c main_arg14 = (m ((c.tc : Thread nD τ).loc main_arg14)) := by
  rw [← W2_arg14 m ρ c]
  show StableHlo.after hostOps1 (W2 m ρ c) (Proc.devRef .tc main_arg14) = _
  after_results_simp <;> rfl
theorem V3_arg16 (c : Dev nD) : V3 m ρ c main_arg16 = (m ((c.tc : Thread nD τ).loc main_arg16)) := by
  rw [← W2_arg16 m ρ c]
  show StableHlo.after hostOps1 (W2 m ρ c) (Proc.devRef .tc main_arg16) = _
  after_results_simp <;> rfl
theorem V3_arg17 (c : Dev nD) : V3 m ρ c main_arg17 = (m ((c.tc : Thread nD τ).loc main_arg17)) := by
  rw [← W2_arg17 m ρ c]
  show StableHlo.after hostOps1 (W2 m ρ c) (Proc.devRef .tc main_arg17) = _
  after_results_simp <;> rfl
theorem V3_arg19 (c : Dev nD) : V3 m ρ c main_arg19 = (m ((c.tc : Thread nD τ).loc main_arg19)) := by
  rw [← W2_arg19 m ρ c]
  show StableHlo.after hostOps1 (W2 m ρ c) (Proc.devRef .tc main_arg19) = _
  after_results_simp <;> rfl
theorem V3_v96 (c : Dev nD) : V3 m ρ c main_v96 = shapeCast S1x64 (m ((c.tc : Thread nD τ).loc main_arg12)) shapeCasts_S64_S1x64 := by
  rw [← W2_arg12 m ρ c]
  show StableHlo.after hostOps1 (W2 m ρ c) (Proc.devRef .tc main_v96) = _
  after_results_simp <;> rfl
theorem V3_v97 (c : Dev nD) : V3 m ρ c main_v97 = shapeCast S1x64 (m ((c.tc : Thread nD τ).loc main_arg15)) shapeCasts_S64_S1x64 := by
  rw [← W2_arg15 m ρ c]
  show StableHlo.after hostOps1 (W2 m ρ c) (Proc.devRef .tc main_v97) = _
  after_results_simp <;> rfl
theorem V3_v98 (c : Dev nD) : V3 m ρ c main_v98 = shapeCast S1x128 (m ((c.tc : Thread nD τ).loc main_arg18)) shapeCasts_S128_S1x128 := by
  rw [← W2_arg18 m ρ c]
  show StableHlo.after hostOps1 (W2 m ρ c) (Proc.devRef .tc main_v98) = _
  after_results_simp <;> rfl
theorem V3_v99 (c : Dev nD) : V3 m ρ c main_v99 = shapeCast S1x1 (m ((c.tc : Thread nD τ).loc main_arg20)) shapeCasts_S1_S1x1 := by
  rw [← W2_arg20 m ρ c]
  show StableHlo.after hostOps1 (W2 m ρ c) (Proc.devRef .tc main_v99) = _
  after_results_simp <;> rfl

/-! ## The result buffer -/

theorem W4_v100 (c : Dev nD) : W4 m ρ c (Proc.devRef .tc main_v100) = (dat1 (V3 m ρ) c).arrAt 13 cfg1.N := W4_arr m ρ c 13
theorem W5_v101 (c : Dev nD) : W5 m ρ c (Proc.devRef .tc main_v101) = shapeCast S50000 ((dat1 (V3 m ρ) c).arrAt 13 cfg1.N) shapeCasts_S50000x1_S50000 := by
  rw [← W4_v100 m ρ c]
  show StableHlo.after hostOps2 (W4 m ρ c) (Proc.devRef .tc main_v101) = _
  after_results_simp <;> rfl

end Cert.KernelIdeal.Glue

end
-- ==== Proof.Spec.lean ====
/-
  The mathematics both programs compute, written once over the extended reals.

  A node's row of one layer (two directional mean-aggregation convolutions, a concatenation, a linear map, each
  followed by max(·, 0)) depends only on that node's rows of the features `x`, of the incoming mean `mi` and of the
  outgoing mean `mo`, and on the weights:
    hidden(x, m)_j = max((Σ_k m_k · Wl_{k j} + bl_j) + Σ_k x_k · Wr_{k j}, 0)            (j < 64)
    cat            = x ++ hidden(x, mi) ++ hidden(x, mo)                                  (128 + 64 + 64 = 256 entries)
    row_c          = max(Σ_k cat_k · cW_{k c} + cb_c, 0)                                  (c < 128)
  and the network's output at a node is Σ_k y_k · fw_k + fb of the node's last-layer row y.
  The sums are over `Fin 128` / `Fin 256` in the order of the contraction index; the zero is the float literal's value.
-/
import Idealize.ShloMosaic.PureOps.Ideal
import Idealize.ShloMosaic.Lib.ValueIdx

noncomputable section

namespace Sage

open Idealize.ShloMosaic Idealize.ShloMosaic.ValueIdx

/-- The float literal `0.0` as an extended real (kept as the literal: both programs carry the same word). -/
abbrev zero : EReal := Ideal.ofBits .f32 0x00000000#32

/-- One directional convolution's row: `max((m · Wl + bl) + x · Wr, 0)`, entry `j`. -/
def hidden (xr mr : Fin 128 → EReal) (Wl Wr : Fin 128 → Fin 64 → EReal) (bl : Fin 64 → EReal) (j : Fin 64) : EReal :=
  max (((∑ k : Fin 128, mr k * Wl k j) + bl j) + ∑ k : Fin 128, xr k * Wr k j) zero

/-- The concatenated row `x ++ hi ++ ho` of length 128 + 64 + 64. -/
def cat (xr : Fin 128 → EReal) (hi ho : Fin 64 → EReal) (k : Fin 256) : EReal :=
  if h : k.val < 128 then xr ⟨k.val, h⟩
  else if h2 : k.val < 192 then hi ⟨k.val - 128, by omega⟩
  else ho ⟨k.val - 192, by omega⟩

/-- One layer's row: `max(cat · cW + cb, 0)`, entry `c`. -/
def rowLayer (xr mir mor : Fin 128 → EReal) (Wli Wri Wlo Wro : Fin 128 → Fin 64 → EReal) (bli blo : Fin 64 → EReal)
    (cW : Fin 256 → Fin 128 → EReal) (cb : Fin 128 → EReal) (c : Fin 128) : EReal :=
  max ((∑ k : Fin 256, cat xr (hidden xr mir Wli Wri bli) (hidden xr mor Wlo Wro blo) k * cW k c) + cb c) zero

/-- The final projection of a row: `y · fw + fb`. -/
def rowFinal (yr : Fin 128 → EReal) (fw : Fin 128 → EReal) (fb : EReal) : EReal :=
  (∑ k : Fin 128, yr k * fw k) + fb

/-- A layer over all 50000 nodes: row `r` of the result is `rowLayer` of rows `r` of `x`, `mi`, `mo`. -/
def layerG (x mi mo : (⟨2, ![50000, 128]⟩ : Shape).Idx → EReal)
    (Wli : (⟨2, ![128, 64]⟩ : Shape).Idx → EReal) (bli : (⟨1, ![64]⟩ : Shape).Idx → EReal)
    (Wri Wlo : (⟨2, ![128, 64]⟩ : Shape).Idx → EReal) (blo : (⟨1, ![64]⟩ : Shape).Idx → EReal)
    (Wro : (⟨2, ![128, 64]⟩ : Shape).Idx → EReal)
    (cW : (⟨2, ![256, 128]⟩ : Shape).Idx → EReal) (cb : (⟨1, ![128]⟩ : Shape).Idx → EReal) :
    (⟨2, ![50000, 128]⟩ : Shape).Idx → EReal :=
  fun i => rowLayer (fun k => x (ix2 (i 0) k)) (fun k => mi (ix2 (i 0) k)) (fun k => mo (ix2 (i 0) k))
    (fun k j => Wli (ix2 k j)) (fun k j => Wri (ix2 k j)) (fun k j => Wlo (ix2 k j)) (fun k j => Wro (ix2 k j))
    (fun j => bli (ix1 j)) (fun j => blo (ix1 j)) (fun k c => cW (ix2 k c)) (fun c => cb (ix1 c)) (i 1)

/-- The output vector: entry `r` is `rowFinal` of row `r` of the last layer. -/
def finalG (y : (⟨2, ![50000, 128]⟩ : Shape).Idx → EReal) (fw : (⟨2, ![128, 1]⟩ : Shape).Idx → EReal)
    (fb : (⟨1, ![1]⟩ : Shape).Idx → EReal) : (⟨1, ![50000]⟩ : Shape).Idx → EReal :=
  fun i => rowFinal (fun k => y (ix2 (i 0) k)) (fun k => fw (ix2 k 0)) (fb (ix1 0))

end Sage

end
-- ==== Proof.PayDots.lean ====
/-
  A matrix product read at an index, at the ideal values.

  For the plain dimension numbers (rows × contraction times contraction × columns, no batch axis) the product of an
  `M × K` by a `K × N` operand accumulated into the zero splat reads, at `(p, j)`, the sum over `k < K` of
  `a (p, k) * b (k, j)`: the sum over the one-axis contraction index re-indexed through its one coordinate.
-/
import Idealize.ShloMosaic.PureOps.Ideal.Laws
import Idealize.ShloMosaic.Lib.ValueIdx

namespace Cert.KernelIdeal.Payload

open Idealize.ShloMosaic Idealize.ShloMosaic.ValueIdx

/-- The left operand's row coordinate is the output's row. -/
theorem plain_lhs_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem plain_lhs_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position. -/
theorem plain_rhs_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column. -/
theorem plain_rhs_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, read at `(p, j)`: `Σ_k a (p, k) * b (k, j)`. -/
theorem matmul_plain_apply (M K N : Nat) {φ₁ φ₂ : FTy} (prec : Option ContractPrecision)
    (a : FVec Ideal ⟨2, ![M, K]⟩ φ₁) (b : FVec Ideal ⟨2, ![K, N]⟩ φ₂) (p : Fin M) (j : Fin N) :
    matmul (F := Ideal) (DotDims.plain M K N) prec a b (constant ⟨2, ![M, N]⟩ .f32 0x00000000#32) (ix2 p j)
      = ∑ k : Fin K, a (ix2 p k) * b (ix2 k j) := by
  show FloatOps.matmul (DotDims.plain M K N) prec a b (constant ⟨2, ![M, N]⟩ .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun c => Fin.ext (by
      match c with
      | ⟨0, _⟩ => exact plain_lhs_0 M K N _ _
      | ⟨1, _⟩ => exact (plain_lhs_1 M K N _ _).trans hk)
  have er : (DotDims.plain M K N).rhsIdx (ix2 p j) ((contrEquiv1 (DotDims.plain M K N) K rfl rfl).symm k) = ix2 k j :=
    funext fun c => Fin.ext (by
      match c with
      | ⟨0, _⟩ => exact (plain_rhs_0 M K N _ _).trans hk
      | ⟨1, _⟩ => exact plain_rhs_1 M K N _ _)
  rw [el, er]

end Cert.KernelIdeal.Payload
-- ==== Proof.PayLayout.lean ====
/-
  The layout operations of the two bodies read at an index.

  A concatenation of a `[2000, 128]`, a `[2000, 64]` and a `[2000, 64]` block along the columns reads, at `(p, k)`,
  the first block at column `k` when `k < 128`, the second at `k - 128` when `128 ≤ k < 192`, the third at `k - 192`
  otherwise: row `p` of the result is the concatenated row `Sage.cat` of the three rows.
-/
import Idealize.ShloMosaic.Lib.ValueLayout
import proofs.«137591_j30339648979103_1_alg».proof.Proof.Spec

namespace Cert.KernelIdeal.Payload

open Idealize.ShloMosaic Idealize.ShloMosaic.ValueIdx

/-- The three-piece concatenation along the columns at `(p, k)`, by the range `k` falls in. -/
theorem concat3_apply {α : Type} (x : (⟨2, ![2000, 128]⟩ : Shape).Idx → α) (hi ho : (⟨2, ![2000, 64]⟩ : Shape).Idx → α)
    (h : Shape.Concatenates [(⟨2, ![2000, 128]⟩ : Shape), ⟨2, ![2000, 64]⟩, ⟨2, ![2000, 64]⟩] ⟨2, ![2000, 256]⟩ 1)
    (p : Fin 2000) (k : Fin 256) :
    concatenate (⟨2, ![2000, 256]⟩ : Shape) 1 [⟨⟨2, ![2000, 128]⟩, x⟩, ⟨⟨2, ![2000, 64]⟩, hi⟩, ⟨⟨2, ![2000, 64]⟩, ho⟩] h (ix2 p k)
      = if h1 : k.val < 128 then x (ix2 p ⟨k.val, h1⟩)
        else if h2 : k.val < 192 then hi (ix2 p ⟨k.val - 128, by omega⟩)
        else ho (ix2 p ⟨k.val - 192, by omega⟩) := by
  by_cases h1 : k.val < 128
  · rw [dif_pos h1]
    refine concatenate_apply_piece (t := ⟨2, ![2000, 256]⟩) (1 : Fin 2) [⟨⟨2, ![2000, 128]⟩, x⟩, ⟨⟨2, ![2000, 64]⟩, hi⟩, ⟨⟨2, ![2000, 64]⟩, ho⟩] h (ix2 p k) 0 (by show 0 < 3; omega) ⟨2, ![2000, 128]⟩ x rfl rfl 0 rfl
      (ix2 p ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 192
    · rw [dif_pos h2]
      refine concatenate_apply_piece (t := ⟨2, ![2000, 256]⟩) (1 : Fin 2) [⟨⟨2, ![2000, 128]⟩, x⟩, ⟨⟨2, ![2000, 64]⟩, hi⟩, ⟨⟨2, ![2000, 64]⟩, ho⟩] h (ix2 p k) 1 (by show 1 < 3; omega) ⟨2, ![2000, 64]⟩ hi rfl rfl 128 rfl
        (ix2 p ⟨k.val - 128, by omega⟩) (fun b hb => ?_) ?_
      · match b with
        | ⟨0, _⟩ => rfl
        | ⟨1, _⟩ => exact absurd rfl hb
      · show 128 + (k.val - 128) = k.val
        omega
    · rw [dif_neg h2]
      refine concatenate_apply_piece (t := ⟨2, ![2000, 256]⟩) (1 : Fin 2) [⟨⟨2, ![2000, 128]⟩, x⟩, ⟨⟨2, ![2000, 64]⟩, hi⟩, ⟨⟨2, ![2000, 64]⟩, ho⟩] h (ix2 p k) 2 (by show 2 < 3; omega) ⟨2, ![2000, 64]⟩ ho rfl rfl 192 rfl
        (ix2 p ⟨k.val - 192, by have := k.isLt; omega⟩) (fun b hb => ?_) ?_
      · match b with
        | ⟨0, _⟩ => rfl
        | ⟨1, _⟩ => exact absurd rfl hb
      · show 192 + (k.val - 192) = k.val
        omega

/-- At the extended reals: row `p` of the concatenation is the concatenated row of the three blocks' rows `p`. -/
theorem concat3_apply_cat (x : (⟨2, ![2000, 128]⟩ : Shape).Idx → EReal) (hi ho : (⟨2, ![2000, 64]⟩ : Shape).Idx → EReal)
    (h : Shape.Concatenates [(⟨2, ![2000, 128]⟩ : Shape), ⟨2, ![2000, 64]⟩, ⟨2, ![2000, 64]⟩] ⟨2, ![2000, 256]⟩ 1)
    (p : Fin 2000) (k : Fin 256) :
    concatenate (⟨2, ![2000, 256]⟩ : Shape) 1 [⟨⟨2, ![2000, 128]⟩, x⟩, ⟨⟨2, ![2000, 64]⟩, hi⟩, ⟨⟨2, ![2000, 64]⟩, ho⟩] h (ix2 p k)
      = Sage.cat (fun c => x (ix2 p c)) (fun j => hi (ix2 p j)) (fun j => ho (ix2 p j)) k :=
  concat3_apply x hi ho h p k

end Cert.KernelIdeal.Payload
-- ==== Proof.Payload.lean ====
/-
  The two bodies' arithmetic read at an index.

  Layer 1's stored block at `(p, c)` is `Sage.rowLayer` of rows `p` of the features block and of the two mean blocks;
  the final body's stored block at `(p, 0)` is `Sage.rowFinal` of that same row. Each matrix product is the plain one
  into the zero splat (a sum over the contraction coordinate), each bias a one-row block broadcast over the rows,
  each format change the identity on extended reals, and the concatenation along the columns the row `Sage.cat`.
-/
import proofs.«137591_j30339648979103_1_alg».proof.Proof.Gen.KernelIdeal.Skeleton
import proofs.«137591_j30339648979103_1_alg».proof.Proof.Spec
import proofs.«137591_j30339648979103_1_alg».proof.Proof.PayDots
import proofs.«137591_j30339648979103_1_alg».proof.Proof.PayLayout

namespace Cert.KernelIdeal.Payload

open Idealize.ShloMosaic Idealize.ShloMosaic.ValueIdx Cert.KernelIdeal Cert.KernelIdeal.Gen

/-! ## The three products at an index -/

/-- `[2000, 128] × [128, 64]` at `(p, j)`. -/
theorem dot64_apply {φ₁ φ₂ : FTy} (a : FVec Ideal S2000x128 φ₁) (b : FVec Ideal S128x64 φ₂) (p : Fin 2000) (j : Fin 64) :
    matmul (F := Ideal) dot_S2000x128_S128x64_S2000x64_1_0_0_1_n_n none a b (constant S2000x64 .f32 0x00000000#32) (ix2 p j)
      = ∑ k : Fin 128, a (ix2 p k) * b (ix2 k j) :=
  matmul_plain_apply 2000 128 64 none a b p j

/-- `[2000, 256] × [256, 128]` at `(p, c)`. -/
theorem dot128_apply {φ₁ φ₂ : FTy} (a : FVec Ideal S2000x256 φ₁) (b : FVec Ideal S256x128 φ₂) (p : Fin 2000) (c : Fin 128) :
    matmul (F := Ideal) dot_S2000x256_S256x128_S2000x128_1_0_0_1_n_n none a b (constant S2000x128 .f32 0x00000000#32) (ix2 p c)
      = ∑ k : Fin 256, a (ix2 p k) * b (ix2 k c) :=
  matmul_plain_apply 2000 256 128 none a b p c

/-- `[2000, 128] × [128, 1]` at `(p, j)`. -/
theorem dot1_apply {φ₁ φ₂ : FTy} (a : FVec Ideal S2000x128 φ₁) (b : FVec Ideal S128x1 φ₂) (p : Fin 2000) (j : Fin 1) :
    matmul (F := Ideal) dot_S2000x128_S128x1_S2000x1_1_0_0_1_n_n none a b (constant S2000x1 .f32 0x00000000#32) (ix2 p j)
      = ∑ k : Fin 128, a (ix2 p k) * b (ix2 k j) :=
  matmul_plain_apply 2000 128 1 none a b p j

/-! ## One directional convolution's block -/

/-- `max((m · Wl + bl) + x · Wr, 0)` as the bodies write it, at `(p, j)`: entry `j` of the hidden row of rows `p`. -/
theorem hidden_apply (mb xb : FVec Ideal S2000x128 .bf16) (Wlb Wrb : FVec Ideal S128x64 .bf16) (bl : FVec Ideal S1x64 .f32)
    (hb : S1x64.Broadcasts S2000x64) (p : Fin 2000) (j : Fin 64) :
    maximumf (addf (addf (matmul dot_S2000x128_S128x64_S2000x64_1_0_0_1_n_n none mb Wlb (constant S2000x64 .f32 0x00000000#32))
          (broadcastTo S2000x64 bl hb))
        (matmul dot_S2000x128_S128x64_S2000x64_1_0_0_1_n_n none xb Wrb (constant S2000x64 .f32 0x00000000#32)))
      (broadcast S2000x64 (Scalar.ofBits (F := Ideal) .f32 0x00000000#32)) (ix2 p j)
      = Sage.hidden (fun k => xb (ix2 p k)) (fun k => mb (ix2 p k)) (fun k j => Wlb (ix2 k j)) (fun k j => Wrb (ix2 k j))
          (fun j => bl (ix2 0 j)) j := by
  rw [maximumf_apply, addf_apply, addf_apply, dot64_apply, dot64_apply, broadcastTo_1b_ab_apply]
  rfl

/-- The final body's first hidden block at `(p, j)`. -/
theorem pay4_apply (x m : Vec Ideal S2000x128 .f32) (Wl Wr : Vec Ideal S128x64 .f32) (bl : Vec Ideal S1x64 .f32)
    (p : Fin 2000) (j : Fin 64) :
    k1_pay4 (F := Ideal) x m Wl Wr bl (ix2 p j)
      = Sage.hidden (fun k => x (ix2 p k)) (fun k => m (ix2 p k)) (fun k j => Wl (ix2 k j)) (fun k j => Wr (ix2 k j))
          (fun j => bl (ix2 0 j)) j := by
  unfold k1_pay4 k1_pay3 k1_pay2
  simp only [shapeCast_self]
  exact hidden_apply _ _ _ _ _ _ p j

/-- The final body's second hidden block at `(p, j)`. -/
theorem pay5_apply (x m : Vec Ideal S2000x128 .f32) (Wl Wr : Vec Ideal S128x64 .f32) (bl : Vec Ideal S1x64 .f32)
    (p : Fin 2000) (j : Fin 64) :
    k1_pay5 (F := Ideal) x m Wl Wr bl (ix2 p j)
      = Sage.hidden (fun k => x (ix2 p k)) (fun k => m (ix2 p k)) (fun k j => Wl (ix2 k j)) (fun k j => Wr (ix2 k j))
          (fun j => bl (ix2 0 j)) j := by
  unfold k1_pay5 k1_pay3 k1_pay2
  simp only [shapeCast_self]
  exact hidden_apply _ _ _ _ _ _ p j

/-! ## The concatenation, the linear map and the last `max(·, 0)` -/

/-- The linear map over a concatenated block whose two hidden pieces read `hi`, `ho` on row `p`, at `(p, c)`. -/
theorem layer_cat_apply (x : FVec Ideal S2000x128 .f32) (H1 H2 : FVec Ideal S2000x64 .f32)
    (hcat : Shape.Concatenates [S2000x128, S2000x64, S2000x64] S2000x256 1)
    (W : FVec Ideal S256x128 .f32) (b : FVec Ideal S1x128 .f32) (hb : S1x128.Broadcasts S2000x128)
    (p : Fin 2000) (c : Fin 128) (hi ho : Fin 64 → EReal)
    (e1 : ∀ j, H1 (ix2 p j) = hi j) (e2 : ∀ j, H2 (ix2 p j) = ho j) :
    maximumf (addf (matmul dot_S2000x256_S256x128_S2000x128_1_0_0_1_n_n none
            (truncf .bf16 (concatenate S2000x256 1 [⟨S2000x128, x⟩, ⟨S2000x64, H1⟩, ⟨S2000x64, H2⟩] hcat) bitsLt_bf16_f32)
            (truncf .bf16 W bitsLt_bf16_f32) (constant S2000x128 .f32 0x00000000#32))
          (broadcastTo S2000x128 b hb))
        (broadcast S2000x128 (Scalar.ofBits (F := Ideal) .f32 0x00000000#32)) (ix2 p c)
      = max ((∑ k : Fin 256, Sage.cat (fun k => x (ix2 p k)) hi ho k * W (ix2 k c)) + b (ix2 0 c)) Sage.zero := by
  rw [maximumf_apply, addf_apply, dot128_apply, broadcastTo_1b_ab_apply]
  refine congrArg₂ max (congrArg₂ (· + ·) (Finset.sum_congr rfl fun k _ => ?_) rfl) rfl
  refine congrArg (· * W (ix2 k c)) ?_
  refine (concat3_apply_cat x H1 H2 hcat p k).trans ?_
  rw [funext e1, funext e2]

/-! ## The two stored blocks -/

/-- Layer 1's stored block at `(p, c)`: the layer's row of rows `p`. -/
theorem pay0_apply (x0 x1 x2 : Vec Ideal S2000x128 .f32) (x3 : Vec Ideal S128x64 .f32) (x4 : Vec Ideal S1x64 .f32)
    (x5 x6 : Vec Ideal S128x64 .f32) (x7 : Vec Ideal S1x64 .f32) (x8 : Vec Ideal S128x64 .f32)
    (x9 : Vec Ideal S256x128 .f32) (x10 : Vec Ideal S1x128 .f32) (p : Fin 2000) (c : Fin 128) :
    k0_pay1 (F := Ideal) (k0_pay2 x0 x1 x2 x3 x5 x6 x8 x4 x7) x9 x10 (ix2 p c)
      = Sage.rowLayer (fun k => x0 (ix2 p k)) (fun k => x1 (ix2 p k)) (fun k => x2 (ix2 p k))
          (fun k j => x3 (ix2 k j)) (fun k j => x5 (ix2 k j)) (fun k j => x6 (ix2 k j)) (fun k j => x8 (ix2 k j))
          (fun j => x4 (ix2 0 j)) (fun j => x7 (ix2 0 j)) (fun k c => x9 (ix2 k c)) (fun c => x10 (ix2 0 c)) c := by
  unfold k0_pay1 k0_pay2
  simp only [shapeCast_self]
  rw [shapeCast_self x1, shapeCast_self x2, shapeCast_self x4, shapeCast_self x7]
  exact layer_cat_apply x0 _ _ _ x9 x10 _ p c _ _
    (fun j => hidden_apply _ _ _ _ _ _ p j) (fun j => hidden_apply _ _ _ _ _ _ p j)

/-- The final body's stored block at `(p, 0)`: the projection of the layer's row of rows `p`. -/
theorem pay1_apply (x0 x1 x2 : Vec Ideal S2000x128 .f32) (x3 : Vec Ideal S128x64 .f32) (x4 : Vec Ideal S1x64 .f32)
    (x5 x6 : Vec Ideal S128x64 .f32) (x7 : Vec Ideal S1x64 .f32) (x8 : Vec Ideal S128x64 .f32)
    (x9 : Vec Ideal S256x128 .f32) (x10 : Vec Ideal S1x128 .f32) (x11 : Vec Ideal S128x1 .f32) (x12 : Vec Ideal S1x1 .f32)
    (p : Fin 2000) :
    k1_pay1 (F := Ideal) (k1_pay2 x0) (k1_pay4 x0 x1 x3 x5 x4) (k1_pay5 x0 x2 x6 x8 x7) x9 x10 x11 x12 (ix2 p 0)
      = Sage.rowFinal
          (Sage.rowLayer (fun k => x0 (ix2 p k)) (fun k => x1 (ix2 p k)) (fun k => x2 (ix2 p k))
            (fun k j => x3 (ix2 k j)) (fun k j => x5 (ix2 k j)) (fun k j => x6 (ix2 k j)) (fun k j => x8 (ix2 k j))
            (fun j => x4 (ix2 0 j)) (fun j => x7 (ix2 0 j)) (fun k c => x9 (ix2 k c)) (fun c => x10 (ix2 0 c)))
          (fun k => x11 (ix2 k 0)) (x12 (ix2 0 0)) := by
  have e2 : k1_pay2 (F := Ideal) x0 = x0 := shapeCast_self _ _
  rw [e2]
  unfold k1_pay1
  simp only [shapeCast_self]
  rw [addf_apply, dot1_apply, broadcastTo_1b_ab_apply]
  refine congrArg₂ (· + ·) (Finset.sum_congr rfl fun k _ => ?_) rfl
  refine congrArg (· * x11 (ix2 k 0)) ?_
  exact layer_cat_apply x0 _ _ _ x9 x10 _ p k _ _
    (fun j => pay4_apply x0 x1 x3 x5 x4 p j) (fun j => pay5_apply x0 x2 x6 x8 x7 p j)

end Cert.KernelIdeal.Payload
-- ==== Proof.Region.lean ====
/-
  What each kernel's write-backs leave, as ONE function of the arrays the kernel finds.

  Both kernels run over 25 grid points; point `t` stages rows 2000 t … 2000 t + 1999 of the three node arrays (features,
  incoming mean, outgoing mean) and the whole of every weight array, and writes back the same rows of the output. A
  row of the body's result depends only on the same row of the three staged blocks (the payload read at an index), and
  row `p` of block `t` is node `2000 t + p`; so what point `t` writes back is block `t` of the layer function of the whole
  arrays. The 25 blocks cover the output array (node `r` lies in block `r / 2000`), hence the array ends at that
  function: the layer for the first kernel, the final projection of the layer for the second.
-/
import proofs.«137591_j30339648979103_1_alg».proof.Proof.Gen.KernelIdeal.Frame
import proofs.«137591_j30339648979103_1_alg».proof.Proof.Spec
import proofs.«137591_j30339648979103_1_alg».proof.Proof.Payload
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A block's first store offset, as the constant zero function. -/
theorem hz : (![0, 0] : Fin 2 → Nat) = fun _ => 0 := funext fun a => by fin_cases a <;> rfl

/-- A bias kept as a row [1, n], read as the vector [n]. -/
def rowVec {n : Nat} (b : (⟨2, ![1, n]⟩ : Shape).Idx → EReal) : (⟨1, ![n]⟩ : Shape).Idx → EReal := fun j => b (ix2 0 (j 0))

/-- Two rows of a layer are equal when their data are. -/
theorem rowLayer_congr {xr xr' mir mir' mor mor' : Fin 128 → EReal} {Wli Wli' Wri Wri' Wlo Wlo' Wro Wro' : Fin 128 → Fin 64 → EReal}
    {bli bli' blo blo' : Fin 64 → EReal} {cW cW' : Fin 256 → Fin 128 → EReal} {cb cb' : Fin 128 → EReal} (q : Fin 128)
    (h0 : xr = xr') (h1 : mir = mir') (h2 : mor = mor') (h3 : Wli = Wli') (h5 : Wri = Wri') (h6 : Wlo = Wlo') (h8 : Wro = Wro')
    (h4 : bli = bli') (h7 : blo = blo') (h9 : cW = cW') (h10 : cb = cb') :
    Sage.rowLayer xr mir mor Wli Wri Wlo Wro bli blo cW cb q = Sage.rowLayer xr' mir' mor' Wli' Wri' Wlo' Wro' bli' blo' cW' cb' q := by
  subst h0 h1 h2 h3 h5 h6 h8 h4 h7 h9 h10; rfl

variable (V : (c : Dev nD) → (b : Ref sig .tc) → Buf (Elt Ideal) ((c : Thread nD τ).loc b))

/-! ## The first kernel: its output array is the layer of the arrays it finds -/

/-- The layer function of the arrays the first kernel finds (the biases arrive as rows [1, n]). -/
def G0 (c : Dev nD) : S50000x128.Idx → EReal :=
  Sage.layerG (V c main_arg0) (V c main_v22) (V c main_v45) (V c main_arg3) (rowVec (V c main_v46)) (V c main_arg5)
    (V c main_arg6) (rowVec (V c main_v47)) (V c main_arg8) (V c main_arg9) (rowVec (V c main_v48))

/-- The index maps over the 25 grid points: the node-block windows sit at block (t, 0), the weights at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- Row `p` of block `t` is node `2000 t + p`. -/
def node0 (t : Fin cfg0.N) (p : Fin 2000) : Fin 50000 :=
  ⟨t.val * 2000 + p.val, by have ht : t.val < grid0.N := t.isLt; have hN : grid0.N = 25 := N_0; have := p.isLt; omega⟩

theorem flushed0_eq (c : Dev nD) (t : Fin cfg0.N) :
    (dat0 V c).flushed 11 t = ((cfg0.win 11).blk t).view.read (Elt Ideal) (G0 V c) := by
  show (cfg0.win 11).cut (grid0.coords t) ((dat0 V c).after 11 t) = _
  rw [after0_11]
  unfold out0_11
  rw [View.canon_unit_zero hz]
  simp only [View.ld_unit_zero (S := S2000x128) hz, View.ld_unit_zero (S := S128x64) hz, View.ld_unit_zero (S := S1x64) hz,
    View.ld_unit_zero (S := S256x128) hz, View.ld_unit_zero (S := S1x128) hz]
  refine funext fun (j : S2000x128.Idx) => ?_
  obtain ⟨p, q, rfl⟩ : ∃ (p : Fin 2000) (q : Fin 128), j = ix2 p q := ⟨j 0, j 1, eq_ix2 j⟩
  obtain ⟨e0a, e0b, e1a, e1b, e2a, e2b, e3a, e3b, e4a, e4b, e5a, e5b, e6a, e6b, e7a, e7b, e8a, e8b, e9a, e9b, e10a, e10b, e11a, e11b⟩ := idx_facts0 t
  have hemb : ((cfg0.win 11).blk t).view.emb (ix2 p q) = ix2 (node0 t p) q := by
    funext a; apply Fin.ext
    match a with
    | ⟨0, _⟩ => show win0_11.index t (0 : Fin 2) * 2000 + 1 * p.val = t.val * 2000 + p.val; rw [e11a]; omega
    | ⟨1, _⟩ => show win0_11.index t (1 : Fin 2) * 128 + 1 * q.val = q.val; rw [e11b]; omega
  refine (Payload.pay0_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p q).trans ?_
  show _ = G0 V c (((cfg0.win 11).blk t).view.emb (ix2 p q))
  rw [hemb]
  show _ = Sage.rowLayer (fun k => V c main_arg0 (ix2 (node0 t p) k)) (fun k => V c main_v22 (ix2 (node0 t p) k))
    (fun k => V c main_v45 (ix2 (node0 t p) k)) (fun k j => V c main_arg3 (ix2 k j)) (fun k j => V c main_arg5 (ix2 k j))
    (fun k j => V c main_arg6 (ix2 k j)) (fun k j => V c main_arg8 (ix2 k j)) (fun j => V c main_v46 (ix2 (0 : Fin 1) j))
    (fun j => V c main_v47 (ix2 (0 : Fin 1) j)) (fun k j => V c main_arg9 (ix2 k j)) (fun j => V c main_v48 (ix2 (0 : Fin 1) j)) q
  refine rowLayer_congr q ?_ ?_ ?_ ?_ ?_ ?_ ?_ ?_ ?_ ?_ ?_
  · funext k
    show V c main_arg0 (((cfg0.win 0).blk t).view.emb (ix2 p k)) = _
    refine congrArg _ (funext fun a => Fin.ext ?_)
    match a with
    | ⟨0, _⟩ => show win0_0.index t (0 : Fin 2) * 2000 + 1 * p.val = t.val * 2000 + p.val; rw [e0a]; omega
    | ⟨1, _⟩ => show win0_0.index t (1 : Fin 2) * 128 + 1 * k.val = k.val; rw [e0b]; omega
  · funext k
    show V c main_v22 (((cfg0.win 1).blk t).view.emb (ix2 p k)) = _
    refine congrArg _ (funext fun a => Fin.ext ?_)
    match a with
    | ⟨0, _⟩ => show win0_1.index t (0 : Fin 2) * 2000 + 1 * p.val = t.val * 2000 + p.val; rw [e1a]; omega
    | ⟨1, _⟩ => show win0_1.index t (1 : Fin 2) * 128 + 1 * k.val = k.val; rw [e1b]; omega
  · funext k
    show V c main_v45 (((cfg0.win 2).blk t).view.emb (ix2 p k)) = _
    refine congrArg _ (funext fun a => Fin.ext ?_)
    match a with
    | ⟨0, _⟩ => show win0_2.index t (0 : Fin 2) * 2000 + 1 * p.val = t.val * 2000 + p.val; rw [e2a]; omega
    | ⟨1, _⟩ => show win0_2.index t (1 : Fin 2) * 128 + 1 * k.val = k.val; rw [e2b]; omega
  · funext k j
    show V c main_arg3 (((cfg0.win 3).blk t).view.emb (ix2 k j)) = _
    refine congrArg _ (funext fun a => Fin.ext ?_)
    match a with
    | ⟨0, _⟩ => show win0_3.index t (0 : Fin 2) * 128 + 1 * k.val = k.val; rw [e3a]; omega
    | ⟨1, _⟩ => show win0_3.index t (1 : Fin 2) * 64 + 1 * j.val = j.val; rw [e3b]; omega
  · funext k j
    show V c main_arg5 (((cfg0.win 5).blk t).view.emb (ix2 k j)) = _
    refine congrArg _ (funext fun a => Fin.ext ?_)
    match a with
    | ⟨0, _⟩ => show win0_5.index t (0 : Fin 2) * 128 + 1 * k.val = k.val; rw [e5a]; omega
    | ⟨1, _⟩ => show win0_5.index t (1 : Fin 2) * 64 + 1 * j.val = j.val; rw [e5b]; omega
  · funext k j
    show V c main_arg6 (((cfg0.win 6).blk t).view.emb (ix2 k j)) = _
    refine congrArg _ (funext fun a => Fin.ext ?_)
    match a with
    | ⟨0, _⟩ => show win0_6.index t (0 : Fin 2) * 128 + 1 * k.val = k.val; rw [e6a]; omega
    | ⟨1, _⟩ => show win0_6.index t (1 : Fin 2) * 64 + 1 * j.val = j.val; rw [e6b]; omega
  · funext k j
    show V c main_arg8 (((cfg0.win 8).blk t).view.emb (ix2 k j)) = _
    refine congrArg _ (funext fun a => Fin.ext ?_)
    match a with
    | ⟨0, _⟩ => show win0_8.index t (0 : Fin 2) * 128 + 1 * k.val = k.val; rw [e8a]; omega
    | ⟨1, _⟩ => show win0_8.index t (1 : Fin 2) * 64 + 1 * j.val = j.val; rw [e8b]; omega
  · funext j
    show V c main_v46 (((cfg0.win 4).blk t).view.emb (ix2 (0 : Fin 1) j)) = _
    refine congrArg _ (funext fun a => Fin.ext ?_)
    match a with
    | ⟨0, _⟩ => show win0_4.index t (0 : Fin 2) * 1 + 1 * 0 = 0; rw [e4a]
    | ⟨1, _⟩ => show win0_4.index t (1 : Fin 2) * 64 + 1 * j.val = j.val; rw [e4b]; omega
  · funext j
    show V c main_v47 (((cfg0.win 7).blk t).view.emb (ix2 (0 : Fin 1) j)) = _
    refine congrArg _ (funext fun a => Fin.ext ?_)
    match a with
    | ⟨0, _⟩ => show win0_7.index t (0 : Fin 2) * 1 + 1 * 0 = 0; rw [e7a]
    | ⟨1, _⟩ => show win0_7.index t (1 : Fin 2) * 64 + 1 * j.val = j.val; rw [e7b]; omega
  · funext k j
    show V c main_arg9 (((cfg0.win 9).blk t).view.emb (ix2 k j)) = _
    refine congrArg _ (funext fun a => Fin.ext ?_)
    match a with
    | ⟨0, _⟩ => show win0_9.index t (0 : Fin 2) * 256 + 1 * k.val = k.val; rw [e9a]; omega
    | ⟨1, _⟩ => show win0_9.index t (1 : Fin 2) * 128 + 1 * j.val = j.val; rw [e9b]; omega
  · funext j
    show V c main_v48 (((cfg0.win 10).blk t).view.emb (ix2 (0 : Fin 1) j)) = _
    refine congrArg _ (funext fun a => Fin.ext ?_)
    match a with
    | ⟨0, _⟩ => show win0_10.index t (0 : Fin 2) * 1 + 1 * 0 = 0; rw [e10a]
    | ⟨1, _⟩ => show win0_10.index t (1 : Fin 2) * 128 + 1 * j.val = j.val; rw [e10b]; omega

/-- An index of the output array is in point `t`'s block iff each coordinate is in the block's range. -/
theorem mem_blk0 (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v49).slice (win0_11.rect t)).set ↔ _
  rw [View.set_slice_whole, Rect.mem_set_unit]
  exact Iff.rfl

/-- Every node's row is in the block of the point `node / 2000`. -/
theorem cover0 (i : S50000x128.Idx) : ∃ t : Fin cfg0.N, (cfg0.win 11).flush t = true ∧ i ∈ ((cfg0.win 11).blk t).view.set := by
  have hi0 : (i 0).val < 50000 := idx2_lt0 i
  have hi1 : (i 1).val < 128 := idx2_lt1 i
  have hN : grid0.N = 25 := N_0
  let t : Fin cfg0.N := ⟨(i 0).val / 2000, by show (i 0).val / 2000 < grid0.N; omega⟩
  obtain ⟨e0a, e0b, e1a, e1b, e2a, e2b, e3a, e3b, e4a, e4b, e5a, e5b, e6a, e6b, e7a, e7b, e8a, e8b, e9a, e9b, e10a, e10b, e11a, e11b⟩ := idx_facts0 t
  refine ⟨t, flush0_11 t, ?_⟩
  rw [mem_blk0]
  intro a
  match a with
  | ⟨0, _⟩ =>
    show win0_11.index t (0 : Fin 2) * 2000 ≤ (i 0).val ∧ (i 0).val < win0_11.index t (0 : Fin 2) * 2000 + 2000
    rw [e11a]; show (i 0).val / 2000 * 2000 ≤ (i 0).val ∧ (i 0).val < (i 0).val / 2000 * 2000 + 2000; omega
  | ⟨1, _⟩ =>
    show win0_11.index t (1 : Fin 2) * 128 ≤ (i 1).val ∧ (i 1).val < win0_11.index t (1 : Fin 2) * 128 + 128
    rw [e11b]; omega

/-- THE FIRST KERNEL'S OUTPUT ARRAY: the layer function of the arrays it finds. -/
theorem final0 (c : Dev nD) : (dat0 V c).arrAt 11 cfg0.N = G0 V c :=
  (dat0 V c).arrAt_eq_of_cover 11 (G0 V c) (fun t _ => flushed0_eq V c t) (cover0)

/-! ## The second kernel: its output column is the final projection of the layer of the arrays it finds -/

theorem rowFinal_congr {yr yr' fw fw' : Fin 128 → EReal} {fb fb' : EReal} (h0 : yr = yr') (h1 : fw = fw') (h2 : fb = fb') :
    Sage.rowFinal yr fw fb = Sage.rowFinal yr' fw' fb' := by subst h0 h1 h2; rfl

/-- The network's output column from the arrays the second kernel finds (biases as rows [1, n]). -/
def G1 (c : Dev nD) : S50000x1.Idx → EReal := fun i =>
  Sage.finalG (Sage.layerG (V c main_v49) (V c main_v72) (V c main_v95) (V c main_arg11) (rowVec (V c main_v96)) (V c main_arg13)
    (V c main_arg14) (rowVec (V c main_v97)) (V c main_arg16) (V c main_arg17) (rowVec (V c main_v98)))
    (V c main_arg19) (rowVec (V c main_v99)) (ix1 (i 0))

/-- The index maps over the 25 grid points: the node-block windows sit at block (t, 0), the weights at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = t.val ∧ win1_13.index t (1 : Fin 2) = 0 :=
  (by decide +kernel : ∀ t : Fin grid1.N, _)

/-- Row `p` of block `t` is node `2000 t + p`. -/
def node1 (t : Fin cfg1.N) (p : Fin 2000) : Fin 50000 :=
  ⟨t.val * 2000 + p.val, by have ht : t.val < grid1.N := t.isLt; have hN : grid1.N = 25 := N_1; have := p.isLt; omega⟩

theorem flushed1_eq (c : Dev nD) (t : Fin cfg1.N) :
    (dat1 V c).flushed 13 t = ((cfg1.win 13).blk t).view.read (Elt Ideal) (G1 V c) := by
  show (cfg1.win 13).cut (grid1.coords t) ((dat1 V c).after 13 t) = _
  rw [after1_13]
  unfold out1_13
  rw [View.canon_unit_zero hz]
  simp only [View.ld_unit_zero (S := S2000x128) hz, View.ld_unit_zero (S := S128x64) hz, View.ld_unit_zero (S := S1x64) hz,
    View.ld_unit_zero (S := S256x128) hz, View.ld_unit_zero (S := S1x128) hz, View.ld_unit_zero (S := S128x1) hz,
    View.ld_unit_zero (S := S1x1) hz, View.ld_unit_zero (S := S2000x1) hz]
  refine funext fun (j : S2000x1.Idx) => ?_
  obtain ⟨p, q, rfl⟩ : ∃ (p : Fin 2000) (q : Fin 1), j = ix2 p q := ⟨j 0, j 1, eq_ix2 j⟩
  obtain rfl : q = 0 := Subsingleton.elim _ _
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts1 t
  have hemb : ((cfg1.win 13).blk t).view.emb (ix2 p (0 : Fin 1)) = ix2 (node1 t p) (0 : Fin 1) := by
    funext a; apply Fin.ext
    match a with
    | ⟨0, _⟩ => show win1_13.index t (0 : Fin 2) * 2000 + 1 * p.val = t.val * 2000 + p.val; rw [e13a]; omega
    | ⟨1, _⟩ => show win1_13.index t (1 : Fin 2) * 1 + 1 * 0 = 0; rw [e13b]
  refine (Payload.pay1_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t) p).trans ?_
  show _ = G1 V c (((cfg1.win 13).blk t).view.emb (ix2 p (0 : Fin 1)))
  rw [hemb]
  show _ = Sage.rowFinal (Sage.rowLayer (fun k => V c main_v49 (ix2 (node1 t p) k)) (fun k => V c main_v72 (ix2 (node1 t p) k))
    (fun k => V c main_v95 (ix2 (node1 t p) k)) (fun k j => V c main_arg11 (ix2 k j)) (fun k j => V c main_arg13 (ix2 k j))
    (fun k j => V c main_arg14 (ix2 k j)) (fun k j => V c main_arg16 (ix2 k j)) (fun j => V c main_v96 (ix2 (0 : Fin 1) j))
    (fun j => V c main_v97 (ix2 (0 : Fin 1) j)) (fun k j => V c main_arg17 (ix2 k j)) (fun j => V c main_v98 (ix2 (0 : Fin 1) j)))
    (fun k => V c main_arg19 (ix2 k (0 : Fin 1))) (V c main_v99 (ix2 (0 : Fin 1) (0 : Fin 1)))
  refine rowFinal_congr (funext fun q => rowLayer_congr q ?_ ?_ ?_ ?_ ?_ ?_ ?_ ?_ ?_ ?_ ?_) ?_ ?_
  · funext k
    show V c main_v49 (((cfg1.win 0).blk t).view.emb (ix2 p k)) = _
    refine congrArg _ (funext fun a => Fin.ext ?_)
    match a with
    | ⟨0, _⟩ => show win1_0.index t (0 : Fin 2) * 2000 + 1 * p.val = t.val * 2000 + p.val; rw [e0a]; omega
    | ⟨1, _⟩ => show win1_0.index t (1 : Fin 2) * 128 + 1 * k.val = k.val; rw [e0b]; omega
  · funext k
    show V c main_v72 (((cfg1.win 1).blk t).view.emb (ix2 p k)) = _
    refine congrArg _ (funext fun a => Fin.ext ?_)
    match a with
    | ⟨0, _⟩ => show win1_1.index t (0 : Fin 2) * 2000 + 1 * p.val = t.val * 2000 + p.val; rw [e1a]; omega
    | ⟨1, _⟩ => show win1_1.index t (1 : Fin 2) * 128 + 1 * k.val = k.val; rw [e1b]; omega
  · funext k
    show V c main_v95 (((cfg1.win 2).blk t).view.emb (ix2 p k)) = _
    refine congrArg _ (funext fun a => Fin.ext ?_)
    match a with
    | ⟨0, _⟩ => show win1_2.index t (0 : Fin 2) * 2000 + 1 * p.val = t.val * 2000 + p.val; rw [e2a]; omega
    | ⟨1, _⟩ => show win1_2.index t (1 : Fin 2) * 128 + 1 * k.val = k.val; rw [e2b]; omega
  · funext k j
    show V c main_arg11 (((cfg1.win 3).blk t).view.emb (ix2 k j)) = _
    refine congrArg _ (funext fun a => Fin.ext ?_)
    match a with
    | ⟨0, _⟩ => show win1_3.index t (0 : Fin 2) * 128 + 1 * k.val = k.val; rw [e3a]; omega
    | ⟨1, _⟩ => show win1_3.index t (1 : Fin 2) * 64 + 1 * j.val = j.val; rw [e3b]; omega
  · funext k j
    show V c main_arg13 (((cfg1.win 5).blk t).view.emb (ix2 k j)) = _
    refine congrArg _ (funext fun a => Fin.ext ?_)
    match a with
    | ⟨0, _⟩ => show win1_5.index t (0 : Fin 2) * 128 + 1 * k.val = k.val; rw [e5a]; omega
    | ⟨1, _⟩ => show win1_5.index t (1 : Fin 2) * 64 + 1 * j.val = j.val; rw [e5b]; omega
  · funext k j
    show V c main_arg14 (((cfg1.win 6).blk t).view.emb (ix2 k j)) = _
    refine congrArg _ (funext fun a => Fin.ext ?_)
    match a with
    | ⟨0, _⟩ => show win1_6.index t (0 : Fin 2) * 128 + 1 * k.val = k.val; rw [e6a]; omega
    | ⟨1, _⟩ => show win1_6.index t (1 : Fin 2) * 64 + 1 * j.val = j.val; rw [e6b]; omega
  · funext k j
    show V c main_arg16 (((cfg1.win 8).blk t).view.emb (ix2 k j)) = _
    refine congrArg _ (funext fun a => Fin.ext ?_)
    match a with
    | ⟨0, _⟩ => show win1_8.index t (0 : Fin 2) * 128 + 1 * k.val = k.val; rw [e8a]; omega
    | ⟨1, _⟩ => show win1_8.index t (1 : Fin 2) * 64 + 1 * j.val = j.val; rw [e8b]; omega
  · funext j
    show V c main_v96 (((cfg1.win 4).blk t).view.emb (ix2 (0 : Fin 1) j)) = _
    refine congrArg _ (funext fun a => Fin.ext ?_)
    match a with
    | ⟨0, _⟩ => show win1_4.index t (0 : Fin 2) * 1 + 1 * 0 = 0; rw [e4a]
    | ⟨1, _⟩ => show win1_4.index t (1 : Fin 2) * 64 + 1 * j.val = j.val; rw [e4b]; omega
  · funext j
    show V c main_v97 (((cfg1.win 7).blk t).view.emb (ix2 (0 : Fin 1) j)) = _
    refine congrArg _ (funext fun a => Fin.ext ?_)
    match a with
    | ⟨0, _⟩ => show win1_7.index t (0 : Fin 2) * 1 + 1 * 0 = 0; rw [e7a]
    | ⟨1, _⟩ => show win1_7.index t (1 : Fin 2) * 64 + 1 * j.val = j.val; rw [e7b]; omega
  · funext k j
    show V c main_arg17 (((cfg1.win 9).blk t).view.emb (ix2 k j)) = _
    refine congrArg _ (funext fun a => Fin.ext ?_)
    match a with
    | ⟨0, _⟩ => show win1_9.index t (0 : Fin 2) * 256 + 1 * k.val = k.val; rw [e9a]; omega
    | ⟨1, _⟩ => show win1_9.index t (1 : Fin 2) * 128 + 1 * j.val = j.val; rw [e9b]; omega
  · funext j
    show V c main_v98 (((cfg1.win 10).blk t).view.emb (ix2 (0 : Fin 1) j)) = _
    refine congrArg _ (funext fun a => Fin.ext ?_)
    match a with
    | ⟨0, _⟩ => show win1_10.index t (0 : Fin 2) * 1 + 1 * 0 = 0; rw [e10a]
    | ⟨1, _⟩ => show win1_10.index t (1 : Fin 2) * 128 + 1 * j.val = j.val; rw [e10b]; omega
  · funext k
    show V c main_arg19 (((cfg1.win 11).blk t).view.emb (ix2 k (0 : Fin 1))) = _
    refine congrArg _ (funext fun a => Fin.ext ?_)
    match a with
    | ⟨0, _⟩ => show win1_11.index t (0 : Fin 2) * 128 + 1 * k.val = k.val; rw [e11a]; omega
    | ⟨1, _⟩ => show win1_11.index t (1 : Fin 2) * 1 + 1 * 0 = 0; rw [e11b]
  · show V c main_v99 (((cfg1.win 12).blk t).view.emb (ix2 (0 : Fin 1) (0 : Fin 1))) = _
    refine congrArg _ (funext fun a => Fin.ext ?_)
    match a with
    | ⟨0, _⟩ => show win1_12.index t (0 : Fin 2) * 1 + 1 * 0 = 0; rw [e12a]
    | ⟨1, _⟩ => show win1_12.index t (1 : Fin 2) * 1 + 1 * 0 = 0; rw [e12b]

/-- An index of the output column is in point `t`'s block iff each coordinate is in the block's range. -/
theorem mem_blk1 (t : Fin cfg1.N) (i : S50000x1.Idx) :
    i ∈ ((cfg1.win 13).blk t).view.set ↔ ∀ a : Fin 2, win1_13.index t a * S2000x1.size a ≤ (i a).val ∧ (i a).val < win1_13.index t a * S2000x1.size a + S2000x1.size a := by
  show i ∈ ((View.whole main_v100).slice (win1_13.rect t)).set ↔ _
  rw [View.set_slice_whole, Rect.mem_set_unit]
  exact Iff.rfl

/-- Every node's entry is in the block of the point `node / 2000`. -/
theorem cover1 (i : S50000x1.Idx) : ∃ t : Fin cfg1.N, (cfg1.win 13).flush t = true ∧ i ∈ ((cfg1.win 13).blk t).view.set := by
  have hi0 : (i 0).val < 50000 := idx2_lt0 i
  have hi1 : (i 1).val < 1 := idx2_lt1 i
  have hN : grid1.N = 25 := N_1
  let t : Fin cfg1.N := ⟨(i 0).val / 2000, by show (i 0).val / 2000 < grid1.N; omega⟩
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts1 t
  refine ⟨t, flush1_13 t, ?_⟩
  rw [mem_blk1]
  intro a
  match a with
  | ⟨0, _⟩ =>
    show win1_13.index t (0 : Fin 2) * 2000 ≤ (i 0).val ∧ (i 0).val < win1_13.index t (0 : Fin 2) * 2000 + 2000
    rw [e13a]; show (i 0).val / 2000 * 2000 ≤ (i 0).val ∧ (i 0).val < (i 0).val / 2000 * 2000 + 2000; omega
  | ⟨1, _⟩ =>
    show win1_13.index t (1 : Fin 2) * 1 ≤ (i 1).val ∧ (i 1).val < win1_13.index t (1 : Fin 2) * 1 + 1
    rw [e13b]; omega

/-- THE SECOND KERNEL'S OUTPUT COLUMN. -/
theorem final1 (c : Dev nD) : (dat1 V c).arrAt 13 cfg1.N = G1 V c :=
  (dat1 V c).arrAt_eq_of_cover 13 (G1 V c) (fun t _ => flushed1_eq V c t) (cover1)

end Cert.KernelIdeal.Region

end
-- ==== Proof.KValue.lean ====
/-
  The kernel's result as one function of the launch arguments.

  Reading back from the result buffer: it is the second kernel's output column reshaped to a vector; that column is the
  final projection of the second layer of the arrays the second kernel finds; those are the first kernel's output
  array, its two means, and the second layer's weights (a bias reshaped to a row and read back as a vector is the
  bias); and the first kernel's output array is the first layer of the launch arguments in the same way.
-/
import proofs.«137591_j30339648979103_1_alg».proof.Proof.KernelRun
import proofs.«137591_j30339648979103_1_alg».proof.Proof.HostGlue
import proofs.«137591_j30339648979103_1_alg».proof.Proof.Region
import proofs.«137591_j30339648979103_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

/-- A column [a, 1] cast to the vector [a] reads, at `i`, the column at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [n] reshaped to a row [1, n] and read back as a vector is the vector. -/
theorem rowVec_shapeCast {n : ℕ} (b : (⟨1, ![n]⟩ : Shape).Idx → EReal) (h : (⟨1, ![n]⟩ : Shape).ShapeCasts ⟨2, ![1, n]⟩) :
    Region.rowVec (shapeCast ⟨2, ![1, n]⟩ b h) = b := by
  funext j
  obtain ⟨a, rfl⟩ : ∃ a : Fin n, j = ix1 a := ⟨j 0, eq_ix1 j⟩
  exact shapeCast_a_1a_apply b h (0 : Fin 1) a

variable (m : (ℓ : Loc nD τ sig) → Buf (Elt Ideal) ℓ) (ρ : Dev nD → PrngReg)

/-- The first layer over all nodes, from the launch arguments. -/
def layer1K (c : Dev nD) : S50000x128.Idx → EReal :=
  (Sage.layerG (m ((c.tc : Thread nD τ).loc main_arg0)) (Glue.aggK (m ((c.tc : Thread nD τ).loc main_arg0)) (m ((c.tc : Thread nD τ).loc main_arg1))) (Glue.aggK (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))

/-- The network's output vector, from the launch arguments: the final projection of the second layer of the first. -/
def netK (c : Dev nD) : S50000.Idx → EReal :=
  Sage.finalG (Sage.layerG (layer1K m c) (Glue.aggK (layer1K m c) (m ((c.tc : Thread nD τ).loc main_arg1))) (Glue.aggK (layer1K m c) (m ((c.tc : Thread nD τ).loc main_arg2))) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) (m ((c.tc : Thread nD τ).loc main_arg19)) (m ((c.tc : Thread nD τ).loc main_arg20))

/-- The first kernel's output array is the first layer. -/
theorem X_eq (c : Dev nD) : Glue.X m ρ c = layer1K m c := by
  show (dat0 (V1 m ρ) c).arrAt 11 cfg0.N = _
  rw [Region.final0 (V1 m ρ) c]
  unfold Region.G0 layer1K
  rw [Glue.V1_arg0, Glue.V1_v22, Glue.V1_v45, Glue.V1_arg3, Glue.V1_v46, Glue.V1_arg5, Glue.V1_arg6, Glue.V1_v47, Glue.V1_arg8,
    Glue.V1_arg9, Glue.V1_v48, rowVec_shapeCast, rowVec_shapeCast, rowVec_shapeCast]

/-- The result buffer's last contents are the network's output. -/
theorem value (c : Dev nD) : W5 m ρ c (Proc.devRef .tc main_v101) = netK m c := by
  rw [Glue.W5_v101, Region.final1 (V3 m ρ) c]
  funext i
  obtain ⟨r, rfl⟩ : ∃ r : Fin 50000, i = ix1 r := ⟨i 0, eq_ix1 i⟩
  rw [shapeCast_a1_a_apply]
  show Sage.finalG (Sage.layerG (V3 m ρ c main_v49) (V3 m ρ c main_v72) (V3 m ρ c main_v95) (V3 m ρ c main_arg11)
    (Region.rowVec (V3 m ρ c main_v96)) (V3 m ρ c main_arg13) (V3 m ρ c main_arg14) (Region.rowVec (V3 m ρ c main_v97))
    (V3 m ρ c main_arg16) (V3 m ρ c main_arg17) (Region.rowVec (V3 m ρ c main_v98))) (V3 m ρ c main_arg19)
    (Region.rowVec (V3 m ρ c main_v99)) (ix1 r) = _
  rw [Glue.V3_v49, Glue.V3_v72, Glue.V3_v95, Glue.V3_arg11, Glue.V3_v96, Glue.V3_arg13, Glue.V3_arg14, Glue.V3_v97, Glue.V3_arg16,
    Glue.V3_arg17, Glue.V3_v98, Glue.V3_arg19, Glue.V3_v99, rowVec_shapeCast, rowVec_shapeCast, rowVec_shapeCast, rowVec_shapeCast, X_eq]
  rfl

/-- THE KERNEL'S RUN, READ: every weakly fair execution terminates, nothing faulting, with the result buffer at the
    network's output of the launch arguments, and the arguments unchanged. -/
theorem run : θ_run defs (onTc (τ := τ) (main (F := Ideal))) ⟨m, fun _ => 0, ρ⟩ (fun r => ∀ c : Dev nD,
      r.2.mem ((c.tc : Thread nD τ).loc main_v101) = netK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (value m ρ c), (h c).2⟩) (RunValue.run (F := Ideal) m ρ)

end Cert.KernelIdeal.KValue

end
-- ==== Proof.RefDefs.lean ====
/-
  The reference program's result, folded into named compositions of its host operations: the mean aggregation
  along a list of edges, one directional convolution, one layer, and the final projection.
  The whole result is the final projection of the second layer of the first layer, each layer reading the
  two aggregations of its own input — by unfolding alone.
-/
import proofs.«137591_j30339648979103_1_alg».proof.Proof.Gen.ReferenceIdeal.Run
import proofs.«137591_j30339648979103_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

section AnyFloat
variable {F : FTy → Type} [FloatOps F]

/-- The mean aggregation of the rows of `x` along the edges `e`, for any float values: gather the source rows,
    scatter-add them into the destination rows, divide by max(count, 1) — the host operations as printed. -/
def hostAggF (x : (⟨S50000x128, .f32⟩ : BufTy).Contents (Elt F)) (e : (⟨S2x625000, .i32⟩ : BufTy).Contents (Elt F)) :
    (⟨S50000x128, .f32⟩ : BufTy).Contents (Elt F) :=
  Host.divf (Host.scatterAdd scatter_S50000x128_S625000x1_S625000x128_1_0_0_1 (broadcastInDim S50000x128 ![] bcast_S_S50000x128 (constant S_ .f32 0x00000000#32)) (broadcastInDim S625000x1 ![0] bcast_S625000_S625000x1_0 (shapeCast _ (extractStridedSlice S1x625000 ![1, 0] e slices_S2x625000_S1x625000_1_0) shapeCasts_S1x625000_S625000)) (Host.gather gather_S50000x128_S625000x1_S625000x128_1_0_n_n_0_1_1128 x (broadcastInDim S625000x1 ![0] bcast_S625000_S625000x1_0 (select (cmpi .slt (shapeCast _ (extractStridedSlice S1x625000 ![0, 0] e slices_S2x625000_S1x625000_0_0) shapeCasts_S1x625000_S625000) (broadcastInDim S625000 ![] bcast_S_S625000 (constantI S_ 32 0#32))) (addi (shapeCast _ (extractStridedSlice S1x625000 ![0, 0] e slices_S2x625000_S1x625000_0_0) shapeCasts_S1x625000_S625000) (broadcastInDim S625000 ![] bcast_S_S625000 (constantI S_ 32 50000#32))) (shapeCast _ (extractStridedSlice S1x625000 ![0, 0] e slices_S2x625000_S1x625000_0_0) shapeCasts_S1x625000_S625000))))) (broadcastInDim S50000x128 ![0, 1] bcast_S50000x1_S50000x128_0_1 (broadcastInDim S50000x1 ![0] bcast_S50000_S50000x1_0 (maximumf (Host.scatterAdd scatter_S50000_S625000x1_S625000_n_0_0_1 (broadcastInDim S50000 ![] bcast_S_S50000 (constant S_ .f32 0x00000000#32)) (broadcastInDim S625000x1 ![0] bcast_S625000_S625000x1_0 (shapeCast _ (extractStridedSlice S1x625000 ![1, 0] e slices_S2x625000_S1x625000_1_0) shapeCasts_S1x625000_S625000)) (broadcastInDim S625000 ![] bcast_S_S625000 (constant S_ .f32 0x3F800000#32))) (broadcastInDim S50000 ![] bcast_S_S50000 (constant S_ .f32 0x3F800000#32)))))

/-- One directional convolution as printed: the product of the mean `mm` with `Wl`, plus the bias row, plus the
    product of `x` with `Wr`, then max(·, 0). -/
def hostConv (x mm : (⟨S50000x128, .f32⟩ : BufTy).Contents (Elt F)) (Wl : (⟨S128x64, .f32⟩ : BufTy).Contents (Elt F))
    (bl : (⟨S64, .f32⟩ : BufTy).Contents (Elt F)) (Wr : (⟨S128x64, .f32⟩ : BufTy).Contents (Elt F)) :
    (⟨S50000x64, .f32⟩ : BufTy).Contents (Elt F) :=
  maximumf (addf (addf (Host.dotGeneral dot_S50000x128_S128x64_S50000x64_1_0_0_1_n_n none mm Wl) (broadcastInDim S50000x64 ![0, 1] bcast_S1x64_S50000x64_0_1 (broadcastInDim S1x64 ![1] bcast_S64_S1x64_1 bl))) (Host.dotGeneral dot_S50000x128_S128x64_S50000x64_1_0_0_1_n_n none x Wr)) (broadcastInDim S50000x64 ![] bcast_S_S50000x64 (constant S_ .f32 0x00000000#32))

/-- One layer as printed: the two directional convolutions over the means `mi`, `mo`, concatenated after `x`,
    a product with `cW`, the bias row, max(·, 0). -/
def hostLayer (x mi mo : (⟨S50000x128, .f32⟩ : BufTy).Contents (Elt F))
    (Wli : (⟨S128x64, .f32⟩ : BufTy).Contents (Elt F)) (bli : (⟨S64, .f32⟩ : BufTy).Contents (Elt F))
    (Wri Wlo : (⟨S128x64, .f32⟩ : BufTy).Contents (Elt F)) (blo : (⟨S64, .f32⟩ : BufTy).Contents (Elt F))
    (Wro : (⟨S128x64, .f32⟩ : BufTy).Contents (Elt F))
    (cW : (⟨S256x128, .f32⟩ : BufTy).Contents (Elt F)) (cb : (⟨S128, .f32⟩ : BufTy).Contents (Elt F)) :
    (⟨S50000x128, .f32⟩ : BufTy).Contents (Elt F) :=
  maximumf (addf (Host.dotGeneral dot_S50000x256_S256x128_S50000x128_1_0_0_1_n_n none (concatenate S50000x256 1 [⟨S50000x128, x⟩, ⟨S50000x64, (hostConv x mi Wli bli Wri)⟩, ⟨S50000x64, (hostConv x mo Wlo blo Wro)⟩] concatenates_S50000x128_S50000x64_S50000x64_S50000x256_d1) cW) (broadcastInDim S50000x128 ![0, 1] bcast_S1x128_S50000x128_0_1 (broadcastInDim S1x128 ![1] bcast_S128_S1x128_1 cb))) (broadcastInDim S50000x128 ![] bcast_S_S50000x128 (constant S_ .f32 0x00000000#32))

/-- The final projection as printed: a product with the 128×1 weight, the bias, the unit axis dropped. -/
def hostFinal (y : (⟨S50000x128, .f32⟩ : BufTy).Contents (Elt F)) (fw : (⟨S128x1, .f32⟩ : BufTy).Contents (Elt F))
    (fb : (⟨S1, .f32⟩ : BufTy).Contents (Elt F)) : (⟨S50000, .f32⟩ : BufTy).Contents (Elt F) :=
  shapeCast _ (addf (Host.dotGeneral dot_S50000x128_S128x1_S50000x1_1_0_0_1_n_n none y fw) (broadcastInDim S50000x1 ![0, 1] bcast_S1x1_S50000x1_0_1 (broadcastInDim S1x1 ![1] bcast_S1_S1x1_1 fb))) shapeCasts_S50000x1_S50000

end AnyFloat

/-- The reference's mean aggregation of the rows of `x` along the edges `e`: gather the source rows, scatter-add them
    into the destination rows, divide by max(count, 1) — the host operations exactly as the program prints them,
    never opened. -/
def hostAgg (x : (⟨S50000x128, .f32⟩ : BufTy).Contents (Elt Ideal)) (e : (⟨S2x625000, .i32⟩ : BufTy).Contents (Elt Ideal)) :
    (⟨S50000x128, .f32⟩ : BufTy).Contents (Elt Ideal) :=
  hostAggF (F := Ideal) x e

set_option maxRecDepth 8192 in
/-- The reference's result is the final projection of layer 2 of layer 1, each layer over the two mean aggregations
    of its own input (definitional: the compositions are sub-terms of the printed term). -/
theorem res_unfold (m : (ℓ : Loc nD τ sig) → Buf (Elt Ideal) ℓ) (c : Dev nD) :
    Cert.ReferenceIdeal.Value.res_main_v136 (F := Ideal) m c
      = hostFinal (F := Ideal)
          (hostLayer (F := Ideal) (hostLayer (F := Ideal) (m ((c.tc : Thread nD τ).loc main_arg0)) (hostAgg (m ((c.tc : Thread nD τ).loc main_arg0)) (m ((c.tc : Thread nD τ).loc main_arg1))) (hostAgg (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
            (hostAgg (hostLayer (F := Ideal) (m ((c.tc : Thread nD τ).loc main_arg0)) (hostAgg (m ((c.tc : Thread nD τ).loc main_arg0)) (m ((c.tc : Thread nD τ).loc main_arg1))) (hostAgg (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)))
            (hostAgg (hostLayer (F := Ideal) (m ((c.tc : Thread nD τ).loc main_arg0)) (hostAgg (m ((c.tc : Thread nD τ).loc main_arg0)) (m ((c.tc : Thread nD τ).loc main_arg1))) (hostAgg (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2)))
            (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))
          (m ((c.tc : Thread nD τ).loc main_arg19)) (m ((c.tc : Thread nD τ).loc main_arg20)) := by
  unfold Cert.ReferenceIdeal.Value.res_main_v136 hostFinal hostLayer hostConv hostAgg hostAggF
  rfl

end Cert.ReferenceIdeal.RefValue

end
-- ==== Proof.RefDots.lean ====
/-
  The reference's three products read at an entry: at the extended reals a host product is the plain sum over the
  contraction axis, and with one contracted axis the contraction index is a number below its extent.
-/
import proofs.«137591_j30339648979103_1_alg».proof.Proof.Gen.ReferenceIdeal
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ### 50000×128 by 128×64 -/

theorem dot64_lhs0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem dot64_lhs1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem dot64_rhs0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem dot64_rhs1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- Entry (r, j) of the product is the sum over the 128 contraction positions of u[r, k] · v[k, j]. -/
theorem dot64_apply (u : (⟨S50000x128, .f32⟩ : BufTy).Contents (Elt Ideal)) (v : (⟨S128x64, .f32⟩ : BufTy).Contents (Elt Ideal))
    (r : Fin 50000) (j : Fin 64) :
    Host.dotGeneral (F := Ideal) (φ₁ := .f32) (φ₂ := .f32) dot_S50000x128_S128x64_S50000x64_1_0_0_1_n_n none u v (ix2 r j)
      = ∑ k : Fin 128, u (ix2 r k) * v (ix2 k j) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 r j) ((ValueIdx.contrEquiv1 dot_S50000x128_S128x64_S50000x64_1_0_0_1_n_n 128 rfl rfl).symm k) = ix2 r k := funext fun a => Fin.ext (by
    match a with
    | ⟨0, _⟩ => exact dot64_lhs0 _ _
    | ⟨1, _⟩ => exact (dot64_lhs1 _ _).trans hk)
  have er : dot_S50000x128_S128x64_S50000x64_1_0_0_1_n_n.rhsIdx (ix2 r j) ((ValueIdx.contrEquiv1 dot_S50000x128_S128x64_S50000x64_1_0_0_1_n_n 128 rfl rfl).symm k) = ix2 k j := funext fun a => Fin.ext (by
    match a with
    | ⟨0, _⟩ => exact (dot64_rhs0 _ _).trans hk
    | ⟨1, _⟩ => exact dot64_rhs1 _ _)
  rw [el, er]

/-! ### 50000×256 by 256×128 -/

theorem dot256_lhs0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem dot256_lhs1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem dot256_rhs0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem dot256_rhs1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- Entry (r, j) of the product is the sum over the 256 contraction positions of u[r, k] · v[k, j]. -/
theorem dot256_apply (u : (⟨S50000x256, .f32⟩ : BufTy).Contents (Elt Ideal)) (v : (⟨S256x128, .f32⟩ : BufTy).Contents (Elt Ideal))
    (r : Fin 50000) (j : Fin 128) :
    Host.dotGeneral (F := Ideal) (φ₁ := .f32) (φ₂ := .f32) dot_S50000x256_S256x128_S50000x128_1_0_0_1_n_n none u v (ix2 r j)
      = ∑ k : Fin 256, u (ix2 r k) * v (ix2 k j) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx (ix2 r j) ((ValueIdx.contrEquiv1 dot_S50000x256_S256x128_S50000x128_1_0_0_1_n_n 256 rfl rfl).symm k) = ix2 r k := funext fun a => Fin.ext (by
    match a with
    | ⟨0, _⟩ => exact dot256_lhs0 _ _
    | ⟨1, _⟩ => exact (dot256_lhs1 _ _).trans hk)
  have er : dot_S50000x256_S256x128_S50000x128_1_0_0_1_n_n.rhsIdx (ix2 r j) ((ValueIdx.contrEquiv1 dot_S50000x256_S256x128_S50000x128_1_0_0_1_n_n 256 rfl rfl).symm k) = ix2 k j := funext fun a => Fin.ext (by
    match a with
    | ⟨0, _⟩ => exact (dot256_rhs0 _ _).trans hk
    | ⟨1, _⟩ => exact dot256_rhs1 _ _)
  rw [el, er]

/-! ### 50000×128 by 128×1 -/

theorem dot1_lhs0 (i : S50000x1.Idx) (q : dot_S50000x128_S128x1_S50000x1_1_0_0_1_n_n.contr.Idx) :
    (dot_S50000x128_S128x1_S50000x1_1_0_0_1_n_n.lhsIdx i q 0).val = (i 0).val := by
  unfold DotDims.lhsIdx
  rw [dif_neg (show ¬(0 : Fin S50000x128.rank) ∈ dot_S50000x128_S128x1_S50000x1_1_0_0_1_n_n.lhsBatch by decide), dif_pos (show (0 : Fin S50000x128.rank) ∈ dot_S50000x128_S128x1_S50000x1_1_0_0_1_n_n.lhsNonContracting by decide)]
  rfl
theorem dot1_lhs1 (i : S50000x1.Idx) (q : dot_S50000x128_S128x1_S50000x1_1_0_0_1_n_n.contr.Idx) :
    (dot_S50000x128_S128x1_S50000x1_1_0_0_1_n_n.lhsIdx i q 1).val = (q ⟨0, by decide⟩).val :=
  dot_S50000x128_S128x1_S50000x1_1_0_0_1_n_n.lhsIdx_val_of_single rfl i q
theorem dot1_rhs0 (i : S50000x1.Idx) (q : dot_S50000x128_S128x1_S50000x1_1_0_0_1_n_n.contr.Idx) :
    (dot_S50000x128_S128x1_S50000x1_1_0_0_1_n_n.rhsIdx i q 0).val = (q ⟨0, by decide⟩).val :=
  dot_S50000x128_S128x1_S50000x1_1_0_0_1_n_n.rhsIdx_val_of_single rfl i q
theorem dot1_rhs1 (i : S50000x1.Idx) (q : dot_S50000x128_S128x1_S50000x1_1_0_0_1_n_n.contr.Idx) :
    (dot_S50000x128_S128x1_S50000x1_1_0_0_1_n_n.rhsIdx i q 1).val = (i 1).val := by
  unfold DotDims.rhsIdx
  rw [dif_neg (show ¬(1 : Fin S128x1.rank) ∈ dot_S50000x128_S128x1_S50000x1_1_0_0_1_n_n.rhsBatch by decide), dif_pos (show (1 : Fin S128x1.rank) ∈ dot_S50000x128_S128x1_S50000x1_1_0_0_1_n_n.rhsNonContracting by decide)]
  rfl

/-- Entry (r, j) of the product is the sum over the 128 contraction positions of u[r, k] · v[k, j]. -/
theorem dot1_apply (u : (⟨S50000x128, .f32⟩ : BufTy).Contents (Elt Ideal)) (v : (⟨S128x1, .f32⟩ : BufTy).Contents (Elt Ideal))
    (r : Fin 50000) (j : Fin 1) :
    Host.dotGeneral (F := Ideal) (φ₁ := .f32) (φ₂ := .f32) dot_S50000x128_S128x1_S50000x1_1_0_0_1_n_n none u v (ix2 r j)
      = ∑ k : Fin 128, u (ix2 r k) * v (ix2 k j) := by
  simp only [Host.dotGeneral]
  rw [Ideal.dotGeneral_apply, ← Equiv.sum_comp (ValueIdx.contrEquiv1 dot_S50000x128_S128x1_S50000x1_1_0_0_1_n_n 128 rfl rfl).symm]
  refine Finset.sum_congr rfl fun k _ => ?_
  have hk := ValueIdx.contrEquiv1_symm_val dot_S50000x128_S128x1_S50000x1_1_0_0_1_n_n 128 rfl rfl k
  have el : dot_S50000x128_S128x1_S50000x1_1_0_0_1_n_n.lhsIdx (ix2 r j) ((ValueIdx.contrEquiv1 dot_S50000x128_S128x1_S50000x1_1_0_0_1_n_n 128 rfl rfl).symm k) = ix2 r k := funext fun a => Fin.ext (by
    match a with
    | ⟨0, _⟩ => exact dot1_lhs0 _ _
    | ⟨1, _⟩ => exact (dot1_lhs1 _ _).trans hk)
  have er : dot_S50000x128_S128x1_S50000x1_1_0_0_1_n_n.rhsIdx (ix2 r j) ((ValueIdx.contrEquiv1 dot_S50000x128_S128x1_S50000x1_1_0_0_1_n_n 128 rfl rfl).symm k) = ix2 k j := funext fun a => Fin.ext (by
    match a with
    | ⟨0, _⟩ => exact (dot1_rhs0 _ _).trans hk
    | ⟨1, _⟩ => exact dot1_rhs1 _ _)
  rw [el, er]

end Cert.ReferenceIdeal.RefValue

end
-- ==== Proof.RefLayer.lean ====
/-
  The reference's layer and final projection, entry by entry, against the specification: products are sums over
  the contraction axis, bias broadcasts read the bias entry, the zero splat is the literal, the concatenation
  reads the piece whose span holds the column, and the last cast drops a unit axis.
-/
import proofs.«137591_j30339648979103_1_alg».proof.Proof.RefDefs
import proofs.«137591_j30339648979103_1_alg».proof.Proof.RefDots
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-! ## Bias rows and the zero splat at an entry -/

/-- The 64-entry bias, broadcast to a row and then to every row, at entry (r, j) is `b j`. -/
theorem bias64_apply (b : (⟨S64, .f32⟩ : BufTy).Contents (Elt Ideal)) (r : Fin 50000) (j : Fin 64) :
    broadcastInDim S50000x64 ![0, 1] bcast_S1x64_S50000x64_0_1 (broadcastInDim S1x64 ![1] bcast_S64_S1x64_1 b) (ix2 r j)
      = b (ix1 j) := by
  refine (broadcastInDim_apply _ bcast_S1x64_S50000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-- The 128-entry bias, broadcast to a row and then to every row, at entry (r, j) is `b j`. -/
theorem bias128_apply (b : (⟨S128, .f32⟩ : BufTy).Contents (Elt Ideal)) (r : Fin 50000) (j : Fin 128) :
    broadcastInDim S50000x128 ![0, 1] bcast_S1x128_S50000x128_0_1 (broadcastInDim S1x128 ![1] bcast_S128_S1x128_1 b) (ix2 r j)
      = b (ix1 j) := by
  refine (broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- The one-entry bias, broadcast to 1×1 and then to every row, at entry (r, 0) is `b 0`. -/
theorem bias1_apply (b : (⟨S1, .f32⟩ : BufTy).Contents (Elt Ideal)) (r : Fin 50000) :
    broadcastInDim S50000x1 ![0, 1] bcast_S1x1_S50000x1_0_1 (broadcastInDim S1x1 ![1] bcast_S1_S1x1_1 b) (ix2 r (0 : Fin 1))
      = b (ix1 (0 : Fin 1)) := by
  refine (broadcastInDim_apply _ bcast_S1x1_S50000x1_0_1 _ (ix2 r (0 : Fin 1)) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else 0; rw [if_pos rfl])).trans ?_
  exact broadcastInDim_apply _ bcast_S1_S1x1_1 b (ix2 (0 : Fin 1) (0 : Fin 1)) (ix1 (0 : Fin 1)) (fun a => match a with
    | ⟨0, _⟩ => by show 0 = if (1 : Nat) = 1 then 0 else 0; rw [if_pos rfl])

/-- The zero splat over 50000×64 at any entry is the literal's value. -/
theorem zero64_apply (i : S50000x64.Idx) :
    broadcastInDim S50000x64 ![] bcast_S_S50000x64 (constant (F := Ideal) S_ .f32 0x00000000#32) i = Sage.zero :=
  (broadcastInDim_apply _ bcast_S_S50000x64 _ i ix0 (fun a => a.elim0)).trans (constant_apply _ _)

/-- The zero splat over 50000×128 at any entry is the literal's value. -/
theorem zero128_apply (i : S50000x128.Idx) :
    broadcastInDim S50000x128 ![] bcast_S_S50000x128 (constant (F := Ideal) S_ .f32 0x00000000#32) i = Sage.zero :=
  (broadcastInDim_apply _ bcast_S_S50000x128 _ i ix0 (fun a => a.elim0)).trans (constant_apply _ _)

/-! ## The concatenation at an entry -/

/-- Row r of `x ++ hi ++ ho` (128 + 64 + 64 columns) at column k: the piece whose span holds k, as `Sage.cat` spells it. -/
theorem cat_apply (x : (⟨S50000x128, .f32⟩ : BufTy).Contents (Elt Ideal)) (hi ho : (⟨S50000x64, .f32⟩ : BufTy).Contents (Elt Ideal))
    (r : Fin 50000) (k : Fin 256) :
    concatenate S50000x256 1 [⟨S50000x128, x⟩, ⟨S50000x64, hi⟩, ⟨S50000x64, ho⟩] concatenates_S50000x128_S50000x64_S50000x64_S50000x256_d1 (ix2 r k)
      = Sage.cat (fun k => x (ix2 r k)) (fun j => hi (ix2 r j)) (fun j => ho (ix2 r j)) k := by
  unfold Sage.cat
  by_cases h : k.val < 128
  · rw [dif_pos h]
    exact concatenate_apply_piece _ _ _ (ix2 r k) 0 (by show (0 : Nat) < 3; omega) S50000x128 x rfl rfl 0 rfl
      (ix2 r ⟨k.val, h⟩)
      (fun b hb => match b with
        | ⟨0, _⟩ => rfl
        | ⟨1, _⟩ => (hb (Fin.ext rfl)).elim)
      (by show 0 + k.val = k.val; omega)
  · rw [dif_neg h]
    by_cases h2 : k.val < 192
    · rw [dif_pos h2]
      exact concatenate_apply_piece _ _ _ (ix2 r k) 1 (by show (1 : Nat) < 3; omega) S50000x64 hi rfl rfl 128 rfl
        (ix2 r ⟨k.val - 128, by omega⟩)
        (fun b hb => match b with
          | ⟨0, _⟩ => rfl
          | ⟨1, _⟩ => (hb (Fin.ext rfl)).elim)
        (by show 128 + (k.val - 128) = k.val; omega)
    · rw [dif_neg h2]
      exact concatenate_apply_piece _ _ _ (ix2 r k) 2 (by show (2 : Nat) < 3; omega) S50000x64 ho rfl rfl 192 rfl
        (ix2 r ⟨k.val - 192, by have := k.isLt; omega⟩)
        (fun b hb => match b with
          | ⟨0, _⟩ => rfl
          | ⟨1, _⟩ => (hb (Fin.ext rfl)).elim)
        (by show 192 + (k.val - 192) = k.val; omega)

/-! ## Dropping the unit axis -/

/-- The 50000×1 column cast to a 50000-vector at r is the column's entry (r, 0). -/
theorem squeeze_apply (y : (⟨S50000x1, .f32⟩ : BufTy).Contents (Elt Ideal)) (r : Fin 50000) :
    shapeCast S50000 y shapeCasts_S50000x1_S50000 (ix1 r) = y (ix2 r (0 : Fin 1)) :=
  shapeCast_apply y shapeCasts_S50000x1_S50000 (ix1 r) (ix2 r (0 : Fin 1))
    (by rewrite [Shape.rowMajor_val_two, Shape.rowMajor_val_one]; show r.val * 1 + 0 = r.val; omega)

/-! ## A convolution, a layer and the final projection at an entry -/

/-- Entry (r, j) of one directional convolution is `Sage.hidden` of rows r of `x` and of the mean. -/
theorem hostConv_apply (x mm : (⟨S50000x128, .f32⟩ : BufTy).Contents (Elt Ideal)) (Wl : (⟨S128x64, .f32⟩ : BufTy).Contents (Elt Ideal))
    (bl : (⟨S64, .f32⟩ : BufTy).Contents (Elt Ideal)) (Wr : (⟨S128x64, .f32⟩ : BufTy).Contents (Elt Ideal))
    (r : Fin 50000) (j : Fin 64) :
    hostConv (F := Ideal) x mm Wl bl Wr (ix2 r j)
      = Sage.hidden (fun k => x (ix2 r k)) (fun k => mm (ix2 r k)) (fun k j => Wl (ix2 k j)) (fun k j => Wr (ix2 k j))
          (fun j => bl (ix1 j)) j := by
  unfold hostConv Sage.hidden
  rw [maximumf_apply, addf_apply, addf_apply, dot64_apply, dot64_apply, bias64_apply, zero64_apply]

/-- The layer as printed is the layer of the specification. -/
theorem hostLayer_eq (x mi mo : (⟨S50000x128, .f32⟩ : BufTy).Contents (Elt Ideal))
    (Wli : (⟨S128x64, .f32⟩ : BufTy).Contents (Elt Ideal)) (bli : (⟨S64, .f32⟩ : BufTy).Contents (Elt Ideal))
    (Wri Wlo : (⟨S128x64, .f32⟩ : BufTy).Contents (Elt Ideal)) (blo : (⟨S64, .f32⟩ : BufTy).Contents (Elt Ideal))
    (Wro : (⟨S128x64, .f32⟩ : BufTy).Contents (Elt Ideal))
    (cW : (⟨S256x128, .f32⟩ : BufTy).Contents (Elt Ideal)) (cb : (⟨S128, .f32⟩ : BufTy).Contents (Elt Ideal)) :
    hostLayer (F := Ideal) x mi mo Wli bli Wri Wlo blo Wro cW cb = Sage.layerG x mi mo Wli bli Wri Wlo blo Wro cW cb := by
  funext i
  obtain ⟨r, c, rfl⟩ : ∃ (r : Fin 50000) (c : Fin 128), i = ix2 r c := ⟨i 0, i 1, eq_ix2 i⟩
  show hostLayer (F := Ideal) x mi mo Wli bli Wri Wlo blo Wro cW cb (ix2 r c)
    = Sage.rowLayer (fun k => x (ix2 r k)) (fun k => mi (ix2 r k)) (fun k => mo (ix2 r k))
        (fun k j => Wli (ix2 k j)) (fun k j => Wri (ix2 k j)) (fun k j => Wlo (ix2 k j)) (fun k j => Wro (ix2 k j))
        (fun j => bli (ix1 j)) (fun j => blo (ix1 j)) (fun k c => cW (ix2 k c)) (fun c => cb (ix1 c)) c
  unfold hostLayer Sage.rowLayer
  rw [maximumf_apply, addf_apply, dot256_apply, bias128_apply, zero128_apply]
  have hi : (fun j : Fin 64 => hostConv (F := Ideal) x mi Wli bli Wri (ix2 r j))
      = Sage.hidden (fun k => x (ix2 r k)) (fun k => mi (ix2 r k)) (fun k j => Wli (ix2 k j)) (fun k j => Wri (ix2 k j))
          (fun j => bli (ix1 j)) := funext fun j => hostConv_apply x mi Wli bli Wri r j
  have ho : (fun j : Fin 64 => hostConv (F := Ideal) x mo Wlo blo Wro (ix2 r j))
      = Sage.hidden (fun k => x (ix2 r k)) (fun k => mo (ix2 r k)) (fun k j => Wlo (ix2 k j)) (fun k j => Wro (ix2 k j))
          (fun j => blo (ix1 j)) := funext fun j => hostConv_apply x mo Wlo blo Wro r j
  have hcat : ∀ k : Fin 256,
      concatenate S50000x256 1 [⟨S50000x128, x⟩, ⟨S50000x64, hostConv (F := Ideal) x mi Wli bli Wri⟩,
          ⟨S50000x64, hostConv (F := Ideal) x mo Wlo blo Wro⟩] concatenates_S50000x128_S50000x64_S50000x64_S50000x256_d1 (ix2 r k)
        = Sage.cat (fun k => x (ix2 r k))
            (Sage.hidden (fun k => x (ix2 r k)) (fun k => mi (ix2 r k)) (fun k j => Wli (ix2 k j)) (fun k j => Wri (ix2 k j))
              (fun j => bli (ix1 j)))
            (Sage.hidden (fun k => x (ix2 r k)) (fun k => mo (ix2 r k)) (fun k j => Wlo (ix2 k j)) (fun k j => Wro (ix2 k j))
              (fun j => blo (ix1 j))) k := fun k => by
    rw [cat_apply, hi, ho]
  refine congrArg (fun s => max (s + cb (ix1 c)) Sage.zero) (Finset.sum_congr rfl fun k _ => ?_)
  rw [hcat k]

/-- The final projection as printed is the final projection of the specification. -/
theorem hostFinal_eq (y : (⟨S50000x128, .f32⟩ : BufTy).Contents (Elt Ideal)) (fw : (⟨S128x1, .f32⟩ : BufTy).Contents (Elt Ideal))
    (fb : (⟨S1, .f32⟩ : BufTy).Contents (Elt Ideal)) :
    hostFinal (F := Ideal) y fw fb = Sage.finalG y fw fb := by
  funext i
  obtain ⟨r, rfl⟩ : ∃ r : Fin 50000, i = ix1 r := ⟨i 0, eq_ix1 i⟩
  show hostFinal (F := Ideal) y fw fb (ix1 r)
    = Sage.rowFinal (fun k => y (ix2 r k)) (fun k => fw (ix2 k (0 : Fin 1))) (fb (ix1 (0 : Fin 1)))
  unfold hostFinal Sage.rowFinal
  rw [squeeze_apply, addf_apply, dot1_apply, bias1_apply]

end Cert.ReferenceIdeal.RefValue

end
-- ==== Proof.RefSide.lean ====
/-
  The reference's whole result against the specification: the final projection of two layers, each layer reading
  the mean aggregations (left as the host's own gather, scatter-add and division) of its input.
-/
import proofs.«137591_j30339648979103_1_alg».proof.Proof.RefLayer

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
/-- The reference's result is `Sage.finalG` of `Sage.layerG` of `Sage.layerG` of the features, each layer over the two
    mean aggregations of its own input along the two edge lists. -/
theorem res_eq (m : (ℓ : Loc nD τ sig) → Buf (Elt Ideal) ℓ) (c : Dev nD) :
    Cert.ReferenceIdeal.Value.res_main_v136 (F := Ideal) m c
      = Sage.finalG
          (Sage.layerG (Sage.layerG (m ((c.tc : Thread nD τ).loc main_arg0)) (hostAgg (m ((c.tc : Thread nD τ).loc main_arg0)) (m ((c.tc : Thread nD τ).loc main_arg1))) (hostAgg (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
            (hostAgg (Sage.layerG (m ((c.tc : Thread nD τ).loc main_arg0)) (hostAgg (m ((c.tc : Thread nD τ).loc main_arg0)) (m ((c.tc : Thread nD τ).loc main_arg1))) (hostAgg (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)))
            (hostAgg (Sage.layerG (m ((c.tc : Thread nD τ).loc main_arg0)) (hostAgg (m ((c.tc : Thread nD τ).loc main_arg0)) (m ((c.tc : Thread nD τ).loc main_arg1))) (hostAgg (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2)))
            (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))
          (m ((c.tc : Thread nD τ).loc main_arg19)) (m ((c.tc : Thread nD τ).loc main_arg20)) := by
  rw [res_unfold, hostFinal_eq, hostLayer_eq, hostLayer_eq]

end Cert.ReferenceIdeal.RefValue

end
-- ==== Proof.lean ====
/-
  Kernel and reference compute one function over the extended reals.

  Both programs are a two-layer network over 50000 nodes. Per layer and per direction (incoming, outgoing edges) a node
  takes the mean of its neighbours' rows, maps it and its own row linearly to 64 features and clamps below at zero; the
  node's row, concatenated with the two results, is mapped linearly to 128 features and clamped again; after the second
  layer each node's row is projected to one number. The means are computed on the host in both programs, by the same
  operations (compared once, by unfolding). The kernel computes each layer block by block — 2000 nodes per grid point,
  the weights whole — and the reference over all nodes at once; since a node's row of a layer depends only on that
  node's rows of the inputs, block `t`'s row `p` is the whole computation's row `2000 t + p`, and the blocks cover the
  nodes. At the ideal values a change of float format is the identity and a matrix product is the plain sum over the
  contracted index in both programs, so the two results agree entry by entry with no algebraic law beyond that and no
  use of the inputs' finiteness. The ideal pass rewrote nothing, so the kernel's idealization is its own text.
-/
import proofs.«137591_j30339648979103_1_alg».proof.Defs
import proofs.«137591_j30339648979103_1_alg».proof.Proof.Gen.Kernel
import proofs.«137591_j30339648979103_1_alg».proof.Proof.Gen.Kernel.Skeleton
import proofs.«137591_j30339648979103_1_alg».proof.Proof.Gen.Kernel.Launch
import proofs.«137591_j30339648979103_1_alg».proof.Proof.Gen.Kernel.Points
import proofs.«137591_j30339648979103_1_alg».proof.Proof.Gen.Kernel.Frame
import proofs.«137591_j30339648979103_1_alg».proof.Proof.Gen.KernelIdeal
import proofs.«137591_j30339648979103_1_alg».proof.Proof.Gen.KernelIdeal.Skeleton
import proofs.«137591_j30339648979103_1_alg».proof.Proof.Gen.KernelIdeal.Launch
import proofs.«137591_j30339648979103_1_alg».proof.Proof.Gen.KernelIdeal.Points
import proofs.«137591_j30339648979103_1_alg».proof.Proof.Gen.KernelIdeal.Frame
import proofs.«137591_j30339648979103_1_alg».proof.Proof.Gen.ReferenceIdeal
import proofs.«137591_j30339648979103_1_alg».proof.Proof.Gen.Pre_finite_inputs
import proofs.«137591_j30339648979103_1_alg».proof.Proof.Gen.ReferenceIdeal.Run
import proofs.«137591_j30339648979103_1_alg».proof.Proof.KValue
import proofs.«137591_j30339648979103_1_alg».proof.Proof.RefSide
import Idealize.ShloMosaic.Adequacy
import Idealize.ShloMosaic.Init

set_option maxRecDepth 16384

noncomputable section

namespace Cert.Proof

open Idealize.ShloMosaic Idealize.SL.Sem

/-- The two programs' host-side mean aggregation is one function: the same operations over the same shapes. -/
theorem agg_eq : Cert.KernelIdeal.Glue.aggK = Cert.ReferenceIdeal.RefValue.hostAgg := by
  funext x e
  rfl

theorem frame_p : Cert.frame_Kernel := fun m ρ _ => Cert.Kernel.Gen.frame m ρ
theorem frame_pi : Cert.frame_KernelIdeal := fun m ρ _ => Cert.KernelIdeal.Gen.frame m ρ
/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the network's output of those arguments: the
    kernel by its run read through the two regions, the reference by its composed term read layer by layer. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.RefValue.res_eq, h0, h1, h2, h3, h4, h5, h6, h7, h8, h9, h10, h11, h12, h13, h14, h15, h16, h17, h18, h19, h20]
  unfold Cert.KernelIdeal.KValue.netK Cert.KernelIdeal.KValue.layer1K
  rw [agg_eq]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
